-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x4096 : Shape := ⟨3, ![16, 256, 4096]⟩
abbrev S256x256x7 : Shape := ⟨3, ![256, 256, 7]⟩
abbrev S256 : Shape := ⟨1, ![256]⟩
abbrev S_ : Shape := ⟨0, ![]⟩

class Facts : Prop where
  bcast_S_S16x256x4096 : S_.BroadcastsInDim S16x256x4096 (![] : Fin 0 → Fin S16x256x4096.rank)
  reducesTo_S16x256x4096_S_d0_1_2 : S16x256x4096.ReducesTo [0, 1, 2] S_
  h_S_ : 0 < S_.numel
  bcast_S_S256x256x7 : S_.BroadcastsInDim S256x256x7 (![] : Fin 0 → Fin S256x256x7.rank)
  reducesTo_S256x256x7_S_d0_1_2 : S256x256x7.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x256x4096 .f32) (main_arg1 : FVec F S256x256x7 .f32) (main_arg2 : FVec F S256 .f32) : IVec S_ 1 :=
  let main_v0 : FVec F S16x256x4096 .f32 := Host.absf main_arg0
  let main_cst : FVec F S_ .f32 := constant S_ .f32 0x7F800000#32
  let main_v1 : FVec F S16x256x4096 .f32 := broadcastInDim S16x256x4096 ![] bcast_S_S16x256x4096 main_cst
  let main_v2 : IVec S16x256x4096 1 := cmpf .olt main_v0 main_v1
  let main_c : IVec S_ 1 := constantI S_ 1 1#1
  let main_v3 : IVec S_ 1 := (fun x v => Host.reduce IntOp.andi x v reducesTo_S16x256x4096_S_d0_1_2 h_S_) main_v2 main_c
  let main_v4 : FVec F S256x256x7 .f32 := Host.absf main_arg1
  let main_cst_0 : FVec F S_ .f32 := constant S_ .f32 0x7F800000#32
  let main_v5 : FVec F S256x256x7 .f32 := broadcastInDim S256x256x7 ![] bcast_S_S256x256x7 main_cst_0
  let main_v6 : IVec S256x256x7 1 := cmpf .olt main_v4 main_v5
  let main_c_1 : IVec S_ 1 := constantI S_ 1 1#1
  let main_v7 : IVec S_ 1 := (fun x v => Host.reduce IntOp.andi x v reducesTo_S256x256x7_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x256x4096 : Shape := ⟨3, ![16, 256, 4096]⟩
abbrev S256x256x7 : Shape := ⟨3, ![256, 256, 7]⟩
abbrev S256 : Shape := ⟨1, ![256]⟩
abbrev S_ : Shape := ⟨0, ![]⟩
abbrev S16x256x4102 : Shape := ⟨3, ![16, 256, 4102]⟩
abbrev S16 : Shape := ⟨1, ![16]⟩
abbrev S16x1 : Shape := ⟨2, ![16, 1]⟩
abbrev S262 : Shape := ⟨1, ![262]⟩
abbrev S1x262 : Shape := ⟨2, ![1, 262]⟩
abbrev S16x262 : Shape := ⟨2, ![16, 262]⟩
abbrev S16x262x1 : Shape := ⟨3, ![16, 262, 1]⟩
abbrev S16x256x16x262 : Shape := ⟨4, ![16, 256, 16, 262]⟩
abbrev S65536x262 : Shape := ⟨2, ![65536, 262]⟩
abbrev S7x256x256 : Shape := ⟨3, ![7, 256, 256]⟩
abbrev S65536x256 : Shape := ⟨2, ![65536, 256]⟩
abbrev S4096x262 : Shape := ⟨2, ![4096, 262]⟩
abbrev S4096x256 : Shape := ⟨2, ![4096, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 37
  | .vmem => 9
  | .smem => 0
  | _ => 0

abbrev bufTy : (tb : Table) → Fin (tcTables nBuf tb) → BufTy
  | .hbm, ⟨0, _⟩ => ⟨S16x256x4096, .f32⟩
  | .hbm, ⟨1, _⟩ => ⟨S256x256x7, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S16x256x4102, .f32⟩
  | .hbm, ⟨6, _⟩ => ⟨S16, .i32⟩
  | .hbm, ⟨7, _⟩ => ⟨S16x1, .i32⟩
  | .hbm, ⟨8, _⟩ => ⟨S_, .i32⟩
  | .hbm, ⟨9, _⟩ => ⟨S16x1, .i32⟩
  | .hbm, ⟨10, _⟩ => ⟨S16x1, .i32⟩
  | .hbm, ⟨11, _⟩ => ⟨S262, .i32⟩
  | .hbm, ⟨12, _⟩ => ⟨S1x262, .i32⟩
  | .hbm, ⟨13, _⟩ => ⟨S16x262, .i32⟩
  | .hbm, ⟨14, _⟩ => ⟨S16x262, .i32⟩
  | .hbm, ⟨15, _⟩ => ⟨S16x262, .i32⟩
  | .hbm, ⟨16, _⟩ => ⟨S_, .i32⟩
  | .hbm, ⟨17, _⟩ => ⟨S16x262, .i32⟩
  | .hbm, ⟨18, _⟩ => ⟨S16x262, .i1⟩
  | .hbm, ⟨19, _⟩ => ⟨S_, .i32⟩
  | .hbm, ⟨20, _⟩ => ⟨S16x262, .i32⟩
  | .hbm, ⟨21, _⟩ => ⟨S16x262, .i32⟩
  | .hbm, ⟨22, _⟩ => ⟨S16x262, .i32⟩
  | .hbm, ⟨23, _⟩ => ⟨S16x262x1, .i32⟩
  | .hbm, ⟨24, _⟩ => ⟨S16x256x16x262, .f32⟩
  | .hbm, ⟨25, _⟩ => ⟨S65536x262, .f32⟩
  | .hbm, ⟨26, _⟩ => ⟨S65536x262, .bf16⟩
  | .hbm, ⟨27, _⟩ => ⟨S65536x262, .f32⟩
  | .hbm, ⟨28, _⟩ => ⟨S65536x262, .f32⟩
  | .hbm, ⟨29, _⟩ => ⟨S65536x262, .bf16⟩
  | .hbm, ⟨30, _⟩ => ⟨S7x256x256, .f32⟩
  | .hbm, ⟨31, _⟩ => ⟨S7x256x256, .bf16⟩
  | .hbm, ⟨32, _⟩ => ⟨S7x256x256, .f32⟩
  | .hbm, ⟨33, _⟩ => ⟨S7x256x256, .f32⟩
  | .hbm, ⟨34, _⟩ => ⟨S7x256x256, .bf16⟩
  | .hbm, ⟨35, _⟩ => ⟨S65536x256, .f32⟩
  | .hbm, ⟨36, _⟩ => ⟨S16x256x4096, .f32⟩
  | .local _ .vmem, ⟨0, _⟩ => ⟨S4096x262, .bf16⟩
  | .local _ .vmem, ⟨1, _⟩ => ⟨S4096x262, .bf16⟩
  | .local _ .vmem, ⟨2, _⟩ => ⟨S4096x262, .bf16⟩
  | .local _ .vmem, ⟨3, _⟩ => ⟨S4096x262, .bf16⟩
  | .local _ .vmem, ⟨4, _⟩ => ⟨S7x256x256, .bf16⟩
  | .local _ .vmem, ⟨5, _⟩ => ⟨S7x256x256, .bf16⟩
  | .local _ .vmem, ⟨6, _⟩ => ⟨S256, .f32⟩
  | .local _ .vmem, ⟨7, _⟩ => ⟨S4096x256, .f32⟩
  | .local _ .vmem, ⟨8, _⟩ => ⟨S4096x256, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x262 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x262 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S16x256x4096_S16x256x4102_000_000_330 : S16x256x4096.Pads (![0, 0, 3] : Fin 3 → Nat) ![0, 0, 3] ![0, 0, 0] S16x256x4102
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S262_S1x262_1 : S262.BroadcastsInDim S1x262 (![1] : Fin 1 → Fin S1x262.rank)
  bcast_S16x1_S16x262_0_1 : S16x1.BroadcastsInDim S16x262 (![0, 1] : Fin 2 → Fin S16x262.rank)
  bcast_S1x262_S16x262_0_1 : S1x262.BroadcastsInDim S16x262 (![0, 1] : Fin 2 → Fin S16x262.rank)
  bcast_S_S16x262 : S_.BroadcastsInDim S16x262 (![] : Fin 0 → Fin S16x262.rank)
  bcast_S16x262_S16x262x1_0_1 : S16x262.BroadcastsInDim S16x262x1 (![0, 1] : Fin 2 → Fin S16x262x1.rank)
  shapeCasts_S16x256x16x262_S65536x262 : S16x256x16x262.ShapeCasts S65536x262
  bitsLt_bf16_f32 : FTy.bits .bf16 < FTy.bits .f32
  transposes_S256x256x7_S7x256x256_2_1_0 : S256x256x7.Transposes [2, 1, 0] S7x256x256
  inb_S4096x262_S4096x256_0_0 : ∀ a, (![0, 0] : Fin 2 → Nat) a + S4096x256.size a ≤ S4096x262.size a
  h_S4096x256 : 0 < S4096x256.numel
  shapeCasts_S4096x256_S4096x256 : S4096x256.ShapeCasts S4096x256
  inb_S7x256x256_S1x256x256_0_0_0 : ∀ a, (![0, 0, 0] : Fin 3 → Nat) a + S1x256x256.size a ≤ S7x256x256.size a
  h_S1x256x256 : 0 < S1x256x256.numel
  shapeCasts_S1x256x256_S256x256 : S1x256x256.ShapeCasts S256x256
  inb_S4096x262_S4096x256_0_1 : ∀ a, (![0, 1] : Fin 2 → Nat) a + S4096x256.size a ≤ S4096x262.size a
  inb_S7x256x256_S1x256x256_1_0_0 : ∀ a, (![1, 0, 0] : Fin 3 → Nat) a + S1x256x256.size a ≤ S7x256x256.size a
  inb_S4096x262_S4096x256_0_2 : ∀ a, (![0, 2] : Fin 2 → Nat) a + S4096x256.size a ≤ S4096x262.size a
  inb_S7x256x256_S1x256x256_2_0_0 : ∀ a, (![2, 0, 0] : Fin 3 → Nat) a + S1x256x256.size a ≤ S7x256x256.size a
  inb_S4096x262_S4096x256_0_3 : ∀ a, (![0, 3] : Fin 2 → Nat) a + S4096x256.size a ≤ S4096x262.size a
  inb_S7x256x256_S1x256x256_3_0_0 : ∀ a, (![3, 0, 0] : Fin 3 → Nat) a + S1x256x256.size a ≤ S7x256x256.size a
  inb_S4096x262_S4096x256_0_4 : ∀ a, (![0, 4] : Fin 2 → Nat) a + S4096x256.size a ≤ S4096x262.size a
  inb_S7x256x256_S1x256x256_4_0_0 : ∀ a, (![4, 0, 0] : Fin 3 → Nat) a + S1x256x256.size a ≤ S7x256x256.size a
  inb_S4096x262_S4096x256_0_5 : ∀ a, (![0, 5] : Fin 2 → Nat) a + S4096x256.size a ≤ S4096x262.size a
  inb_S7x256x256_S1x256x256_5_0_0 : ∀ a, (![5, 0, 0] : Fin 3 → Nat) a + S1x256x256.size a ≤ S7x256x256.size a
  inb_S4096x262_S4096x256_0_6 : ∀ a, (![0, 6] : Fin 2 → Nat) a + S4096x256.size a ≤ S4096x262.size a
  inb_S7x256x256_S1x256x256_6_0_0 : ∀ a, (![6, 0, 0] : Fin 3 → Nat) a + S1x256x256.size a ≤ S7x256x256.size a
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  shapeCasts_S65536x256_S16x256x4096 : S65536x256.ShapeCasts S16x256x4096
  gather_S16x256x4102_S16x262x1_S16x256x16x262_01_2_n_n_2_2_162561_wf : GatherDims.WF S16x256x4102 S16x262x1 S16x256x16x262 [0, 1] [2] [] [2] [] 2 ![16, 256, 1]
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x262.size a ≤ S65536x262.size a
  hwx0_0 : ∀ i : grid0.Coords, EltTy.bits .bf16 = 32 ∨ (Rect.block (s := S65536x262) S4096x262.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x262.size a ≤ S65536x262.size a
  hwx0_1 : ∀ i : grid0.Coords, EltTy.bits .bf16 = 32 ∨ (Rect.block (s := S65536x262) S4096x262.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x256x256.size a ≤ S7x256x256.size a
  hwx0_2 : ∀ i : grid0.Coords, EltTy.bits .bf16 = 32 ∨ (Rect.block (s := S7x256x256) S7x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x256x256.size a ≤ S7x256x256.size a
  hwx0_3 : ∀ i : grid0.Coords, EltTy.bits .bf16 = 32 ∨ (Rect.block (s := S7x256x256) S7x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S65536x256.size a
  hwx0_5 : ∀ i : grid0.Coords, EltTy.bits .f32 = 32 ∨ (Rect.block (s := S65536x256) S4096x256.size (cc0_transform_5 i) (hinb0_5 i)).WholeWords (EltTy.packing .f32)

variable [Facts₀]

def gather_S16x256x4102_S16x262x1_S16x256x16x262_01_2_n_n_2_2_162561 : GatherDims S16x256x4102 S16x262x1 S16x256x16x262 where
  offsetDims := [0, 1]
  collapsedSliceDims := [2]
  operandBatchingDims := []
  startIndicesBatchingDims := []
  startIndexMap := [2]
  indexVectorDim := 2
  sliceSizes := ![16, 256, 1]
  wf := gather_S16x256x4102_S16x262x1_S16x256x16x262_01_2_n_n_2_2_162561_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v18) S4096x262.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4096x262.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S7x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S7x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x4096 : Shape := ⟨3, ![16, 256, 4096]⟩
abbrev S256x256x7 : Shape := ⟨3, ![256, 256, 7]⟩
abbrev S256 : Shape := ⟨1, ![256]⟩
abbrev S_ : Shape := ⟨0, ![]⟩
abbrev S16x256x4102 : Shape := ⟨3, ![16, 256, 4102]⟩
abbrev S4096 : Shape := ⟨1, ![4096]⟩
abbrev S4096x1 : Shape := ⟨2, ![4096, 1]⟩
abbrev S7 : Shape := ⟨1, ![7]⟩
abbrev S1x7 : Shape := ⟨2, ![1, 7]⟩
abbrev S4096x7 : Shape := ⟨2, ![4096, 7]⟩
abbrev S4096x7x1 : Shape := ⟨3, ![4096, 7, 1]⟩
abbrev S16x256x4096x7 : Shape := ⟨4, ![16, 256, 4096, 7]⟩
abbrev S65536x1792 : Shape := ⟨2, ![65536, 1792]⟩
abbrev S256x7x256 : Shape := ⟨3, ![256, 7, 256]⟩
abbrev S1792x256 : Shape := ⟨2, ![1792, 256]⟩
abbrev S65536x256 : Shape := ⟨2, ![65536, 256]⟩
abbrev S1x256 : Shape := ⟨2, ![1, 256]⟩

abbrev nBuf : Space → Nat
  | .hbm => 33
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S256x256x7, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S16x256x4102, .f32⟩
  | .hbm, ⟨6, _⟩ => ⟨S4096, .i32⟩
  | .hbm, ⟨7, _⟩ => ⟨S4096x1, .i32⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S7, .i32⟩
  | .hbm, ⟨12, _⟩ => ⟨S1x7, .i32⟩
  | .hbm, ⟨13, _⟩ => ⟨S4096x7, .i32⟩
  | .hbm, ⟨14, _⟩ => ⟨S4096x7, .i32⟩
  | .hbm, ⟨15, _⟩ => ⟨S4096x7, .i32⟩
  | .hbm, ⟨16, _⟩ => ⟨S_, .i32⟩
  | .hbm, ⟨17, _⟩ => ⟨S4096x7, .i32⟩
  | .hbm, ⟨18, _⟩ => ⟨S4096x7, .i1⟩
  | .hbm, ⟨19, _⟩ => ⟨S_, .i32⟩
  | .hbm, ⟨20, _⟩ => ⟨S4096x7, .i32⟩
  | .hbm, ⟨21, _⟩ => ⟨S4096x7, .i32⟩
  | .hbm, ⟨22, _⟩ => ⟨S4096x7, .i32⟩
  | .hbm, ⟨23, _⟩ => ⟨S4096x7x1, .i32⟩
  | .hbm, ⟨24, _⟩ => ⟨S16x256x4096x7, .f32⟩
  | .hbm, ⟨25, _⟩ => ⟨S65536x1792, .f32⟩
  | .hbm, ⟨26, _⟩ => ⟨S256x7x256, .f32⟩
  | .hbm, ⟨27, _⟩ => ⟨S1792x256, .f32⟩
  | .hbm, ⟨28, _⟩ => ⟨S65536x256, .f32⟩
  | .hbm, ⟨29, _⟩ => ⟨S1x256, .f32⟩
  | .hbm, ⟨30, _⟩ => ⟨S65536x256, .f32⟩
  | .hbm, ⟨31, _⟩ => ⟨S65536x256, .f32⟩
  | .hbm, ⟨32, _⟩ => ⟨S16x256x4096, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  pads_S16x256x4096_S16x256x4102_000_000_330 : S16x256x4096.Pads (![0, 0, 3] : Fin 3 → Nat) ![0, 0, 3] ![0, 0, 0] S16x256x4102
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S7_S1x7_1 : S7.BroadcastsInDim S1x7 (![1] : Fin 1 → Fin S1x7.rank)
  bcast_S4096x1_S4096x7_0_1 : S4096x1.BroadcastsInDim S4096x7 (![0, 1] : Fin 2 → Fin S4096x7.rank)
  bcast_S1x7_S4096x7_0_1 : S1x7.BroadcastsInDim S4096x7 (![0, 1] : Fin 2 → Fin S4096x7.rank)
  bcast_S_S4096x7 : S_.BroadcastsInDim S4096x7 (![] : Fin 0 → Fin S4096x7.rank)
  bcast_S4096x7_S4096x7x1_0_1 : S4096x7.BroadcastsInDim S4096x7x1 (![0, 1] : Fin 2 → Fin S4096x7x1.rank)
  shapeCasts_S16x256x4096x7_S65536x1792 : S16x256x4096x7.ShapeCasts S65536x1792
  transposes_S256x256x7_S256x7x256_1_2_0 : S256x256x7.Transposes [1, 2, 0] S256x7x256
  shapeCasts_S256x7x256_S1792x256 : S256x7x256.ShapeCasts S1792x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S16x256x4096 : S65536x256.ShapeCasts S16x256x4096
  gather_S16x256x4102_S4096x7x1_S16x256x4096x7_01_2_n_n_2_2_162561_wf : GatherDims.WF S16x256x4102 S4096x7x1 S16x256x4096x7 [0, 1] [2] [] [2] [] 2 ![16, 256, 1]
  dot_S65536x1792_S1792x256_S65536x256_1_0_0_1_n_n_wf : DotDims.WF S65536x1792 S1792x256 S65536x256 [1] [0] [0] [1] [] []

variable [Facts₀]

def gather_S16x256x4102_S4096x7x1_S16x256x4096x7_01_2_n_n_2_2_162561 : GatherDims S16x256x4102 S4096x7x1 S16x256x4096x7 where
  offsetDims := [0, 1]
  collapsedSliceDims := [2]
  operandBatchingDims := []
  startIndicesBatchingDims := []
  startIndexMap := [2]
  indexVectorDim := 2
  sliceSizes := ![16, 256, 1]
  wf := gather_S16x256x4102_S4096x7x1_S16x256x4096x7_01_2_n_n_2_2_162561_wf
def dot_S65536x1792_S1792x256_S65536x256_1_0_0_1_n_n : DotDims S65536x1792 S1792x256 S65536x256 where
  lhsContracting := [1]
  rhsContracting := [0]
  lhsNonContracting := [0]
  rhsNonContracting := [1]
  lhsBatch := []
  rhsBatch := []
  wf := dot_S65536x1792_S1792x256_S65536x256_1_0_0_1_n_n_wf

class Facts : Prop extends Facts₀ where

variable [Facts]
-- ==== Proof.Spec.lean ====
/-
  The specification: the convolution both programs compute, as ONE function of the three argument arrays.

  Row `r` of the 65536 x 256 result belongs to the pair (batch, input channel) numbered `r / 16` and to the block of 256
  consecutive positions numbered `r % 16`. The input row of that pair, padded by three zeros at each end to 4102
  entries, is read through a window of 262 entries starting at position `(r % 16) * 256`; entry `(r, co)` of the result
  is the sum over the seven taps `k` and the 256 offsets `j` of the window's entry `k + j` times the weight
  `w[co, j, k]`, plus the bias of output channel `co`.
-/
import Idealize.ShloMosaic.PureOps.Ideal
import Idealize.ShloMosaic.Lib.ValueIdx

noncomputable section

namespace Cert.ConvSpec

open Idealize.ShloMosaic Idealize.ShloMosaic.ValueIdx

/-- The input: 16 batches, 256 input channels, 4096 positions. -/
abbrev SX : Shape := ⟨3, ![16, 256, 4096]⟩
/-- The weights: 256 output channels, 256 offsets, 7 taps. -/
abbrev SK : Shape := ⟨3, ![256, 256, 7]⟩
/-- The bias: one entry per output channel. -/
abbrev SB : Shape := ⟨1, ![256]⟩
/-- The result before its final reshape: 65536 rows, 256 output channels. -/
abbrev SO : Shape := ⟨2, ![65536, 256]⟩

/-- Entry `p` of input row `bc` (batch `bc / 256`, input channel `bc % 256`) padded by three zeros at each end:
    the input at position `p - 3` when `3 ≤ p < 4099`, zero otherwise. -/
def xpad (x : FVec Ideal SX .f32) (bc : Fin 4096) (p : Fin 4102) : EReal :=
  if h : 3 ≤ p.val ∧ p.val < 4099 then
    x (ix3 ⟨bc.val / 256, by have := bc.isLt; omega⟩ ⟨bc.val % 256, by omega⟩ ⟨p.val - 3, by omega⟩)
  else 0

/-- Entry `jj` of the window of row `r`: the padded input row `r / 16` at position `(r % 16) * 256 + jj`. -/
def win (x : FVec Ideal SX .f32) (r : Fin 65536) (jj : Fin 262) : EReal :=
  xpad x ⟨r.val / 16, by have := r.isLt; omega⟩ ⟨r.val % 16 * 256 + jj.val, by have := jj.isLt; omega⟩

/-- The convolution: entry `(r, co)` is the sum over taps `k` and offsets `j` of the window's entry `k + j` times
    `w[co, j, k]`, plus `bias[co]`. -/
def G (x : FVec Ideal SX .f32) (w : FVec Ideal SK .f32) (bias : FVec Ideal SB .f32) : FVec Ideal SO .f32 := fun i =>
  (∑ k : Fin 7, ∑ j : Fin 256,
      win x ⟨(i 0).val, idx2_lt0 i⟩ ⟨k.val + j.val, by have := k.isLt; have := j.isLt; omega⟩
        * w (ix3 ⟨(i 1).val, idx2_lt1 i⟩ j k))
    + bias (ix1 ⟨(i 1).val, idx2_lt1 i⟩)

end Cert.ConvSpec

end
-- ==== Proof.Finite.lean ====
/-
  Finiteness, read out of the precondition.

  The precondition is the conjunction of three tests, one per argument array: every entry's absolute value is below
  plus infinity. On the extended reals an entry whose absolute value `max x (-x)` is below plus infinity is neither
  infinity, hence a real number. This is what lets a number be subtracted from itself to give zero.
-/
import proofs.«140767_j82085414961669_2_alg».proof.Defs
import proofs.«140767_j82085414961669_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Idealize.SL.Sem

/-- The index type of a rank-zero shape has one element. -/
instance : Subsingleton Cert.Pre_finite_inputs.S_.Idx := ⟨fun _ _ => funext fun d => d.elim0⟩

/-- The word with exponent all ones and fraction zero denotes plus infinity. -/
theorem inf_word : Ideal.ofBits .f32 0x7F800000#32 = (⊤ : EReal) := by
  simp [Ideal.ofBits, Ideal.ieee]

/-- An extended real whose absolute value is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "less than" that came out true holds. -/
theorem lt_of_cmp_olt {a b : EReal} (h : Ideal.cmp .olt a b = 1#1) : a < b := by
  by_contra hlt
  simp [Ideal.cmp, hlt] at h

/-- ONE test of the precondition: when "every entry's absolute value is below plus infinity", reduced by `and` over
    all axes, came out true, every entry of the array is a real number. -/
theorem allReal_of_test {S : Shape} {axes : List (Fin S.rank)} (x : FVec Ideal S .f32)
    (bc : Cert.Pre_finite_inputs.S_.BroadcastsInDim S (![] : Fin 0 → Fin S.rank))
    (red : S.ReducesTo axes Cert.Pre_finite_inputs.S_) (hu : 0 < Cert.Pre_finite_inputs.S_.numel)
    (e : Host.reduce IntOp.andi
          (cmpf .olt (Host.absf x) (broadcastInDim S ![] bc (constant (F := Ideal) Cert.Pre_finite_inputs.S_ .f32 0x7F800000#32)))
          (constantI Cert.Pre_finite_inputs.S_ 1 1#1) red hu ix0 = 1#1) :
    ∀ i, ∃ r : ℝ, x i = (r : EReal) := fun i => by
  have h1 := Host.reduce_andi_all _ _ red hu ix0 e i
  have h2 : Ideal.cmp .olt (max (x i) (-(x i))) (Ideal.ofBits .f32 0x7F800000#32) = 1#1 := h1
  rw [inf_word] at h2
  exact real_of_abs_lt_top _ (lt_of_cmp_olt h2)

/-- Under the precondition, every entry of the input and every entry of the weights is a real number, on every
    device: the conjunction of the three tests split, the first two read by `allReal_of_test`. -/
theorem reals_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)
        : Cert.KernelIdeal.S16x256x4096.Idx → EReal) i = (r : EReal))
    ∧ (∀ i, ∃ r : ℝ, (m ((c.tc : Thread Cert.KernelIdeal.nD Cert.KernelIdeal.τ).loc Cert.KernelIdeal.main_arg1)
        : Cert.KernelIdeal.S256x256x7.Idx → EReal) i = (r : EReal)) := by
  have h0 := congrFun (h c) ix0
  dsimp only [Cert.Pre_finite_inputs.fn] at h0
  obtain ⟨h01, -⟩ := IntOp.andi_eq_one.1 h0
  obtain ⟨hx, hw⟩ := IntOp.andi_eq_one.1 h01
  exact ⟨allReal_of_test _ _ _ _ hx, allReal_of_test _ _ _ _ hw⟩

end Cert.Finite

end
-- ==== Proof.LibGatherRead.lean ====
import Idealize.ShloMosaic.Lib.ValueIdx

noncomputable section
open Idealize.ShloMosaic Idealize.ShloMosaic.ValueIdx

namespace Cert.GatherRead
variable {α : Type}

/-! ## A gather that slides a window along the last axis of a rank-3 operand

An operand `[A, B, P]` is gathered at start indices `[R, C, 1]` into `[A, B, R, C]`: the first two operand axes are
kept whole (offset axes 0 and 1 of the result, slice sizes `A` and `B`), the last operand axis is collapsed (slice size
1) and is the only axis a start index addresses. Result element `(a, b, r, c)` is therefore the operand at
`(a, b, s)`, where `s` is the start index stored at `[r, c, 0]`, read as a signed integer and clamped into
`[0, P - 1]`, as every gather start index is clamped. -/

/-- The dimension numbers of that gather; their conditions `wf` are decided on a program's literal shapes. -/
abbrev winDims (A B P R C : Nat)
    (wf : GatherDims.WF ⟨3, ![A, B, P]⟩ ⟨3, ![R, C, 1]⟩ ⟨4, ![A, B, R, C]⟩ [0, 1] [2] [] [2] [] 2 ![A, B, 1]) :
    GatherDims ⟨3, ![A, B, P]⟩ ⟨3, ![R, C, 1]⟩ ⟨4, ![A, B, R, C]⟩ where
  offsetDims := [0, 1]
  collapsedSliceDims := [2]
  operandBatchingDims := []
  startIndicesBatchingDims := []
  startIndexMap := [2]
  indexVectorDim := 2
  sliceSizes := ![A, B, 1]
  wf := wf

/-- The gather read at `(a, b, r, c)`: the operand at `(a, b, s)` with `s` the start index at `[r, c, 0]`, read signed
    and clamped into `[0, P - 1]`. Axis by axis the operand index is start + batching coordinate + offset coordinate:
    there is no batching axis; axes 0 and 1 are not addressed by the start index (start 0) and are kept, so they carry
    the result's coordinates on offset axes 0 and 1; axis 2 is collapsed (offset 0) and carries the clamped start. -/
theorem gather_window_apply {A B P R C w : Nat} (hP : 0 < P)
    (wf : GatherDims.WF ⟨3, ![A, B, P]⟩ ⟨3, ![R, C, 1]⟩ ⟨4, ![A, B, R, C]⟩ [0, 1] [2] [] [2] [] 2 ![A, B, 1])
    (x : (⟨3, ![A, B, P]⟩ : Shape).Idx → α) (idx : IVec ⟨3, ![R, C, 1]⟩ w) (a : Fin A) (b : Fin B) (r : Fin R) (c : Fin C) :
    Host.gather (winDims A B P R C wf) x idx (ix4 a b r c)
      = x (ix3 a b ⟨min (idx (ix3 r c ⟨0, Nat.one_pos⟩)).toInt.toNat (P - 1), by omega⟩) := by
  unfold Host.gather
  congr 1
  funext axis
  refine Fin.ext ?_
  show (winDims A B P R C wf).start (ix4 a b r c) idx axis + (winDims A B P R C wf).batchCoord (ix4 a b r c) axis
    + (winDims A B P R C wf).offCoord (ix4 a b r c) axis = _
  rw [GatherDims.batchCoord_eq_zero _ _ _ List.not_mem_nil]
  match axis with
  | ⟨0, _⟩ =>
    show (winDims A B P R C wf).start (ix4 a b r c) idx (0 : Fin 3) + 0
      + (winDims A B P R C wf).offCoord (ix4 a b r c) (0 : Fin 3) = a.val
    unfold GatherDims.start
    rw [dif_neg (show (0 : Fin 3) ∉ ([2] : List (Fin 3)) from by decide)]
    unfold GatherDims.offCoord
    rw [dif_pos ((GatherDims.mem_sKept _ _).mpr
      ⟨show (0 : Fin 3) ∉ ([2] : List (Fin 3)) from by decide, List.not_mem_nil⟩)]
    rw [Nat.zero_add]
    rfl
  | ⟨1, _⟩ =>
    show (winDims A B P R C wf).start (ix4 a b r c) idx (1 : Fin 3) + 0
      + (winDims A B P R C wf).offCoord (ix4 a b r c) (1 : Fin 3) = b.val
    unfold GatherDims.start
    rw [dif_neg (show (1 : Fin 3) ∉ ([2] : List (Fin 3)) from by decide)]
    unfold GatherDims.offCoord
    rw [dif_pos ((GatherDims.mem_sKept _ _).mpr
      ⟨show (1 : Fin 3) ∉ ([2] : List (Fin 3)) from by decide, List.not_mem_nil⟩)]
    rw [Nat.zero_add]
    rfl
  | ⟨2, _⟩ =>
    show (winDims A B P R C wf).start (ix4 a b r c) idx (2 : Fin 3) + 0
      + (winDims A B P R C wf).offCoord (ix4 a b r c) (2 : Fin 3)
      = min (idx (ix3 r c ⟨0, Nat.one_pos⟩)).toInt.toNat (P - 1)
    rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ (winDims A B P R C wf).startIndexMap from List.mem_singleton.mpr rfl)]
    have hsi : (winDims A B P R C wf).siIdx (ix4 a b r c) ⟨List.idxOf (2 : Fin 3) (winDims A B P R C wf).startIndexMap,
        List.idxOf_lt_length_iff.2 (List.mem_singleton.mpr rfl)⟩ = ix3 r c ⟨0, Nat.one_pos⟩ := by
      funext b'; refine Fin.ext ?_
      match b' with
      | ⟨0, _⟩ => rfl
      | ⟨1, _⟩ => rfl
      | ⟨2, _⟩ => rfl
    rw [hsi]
    rfl

end Cert.GatherRead
end
-- ==== Proof.RefLeg.lean ====
/-
  The reference program computes the specification. Its 65536 x 256 array before the final reshape is read entry by
  entry: a contraction over 1792 = 256 * 7 positions of the reshaped patches against the reshaped, transposed weights,
  plus the broadcast bias. Each patch entry is a gather of the zero-padded input at start index l + k (row position plus
  tap), which never needs the clamp or the wrap of negative indices; the padded input is the specification's padded
  row; and the contraction index q splits as (offset q / 7, tap q % 7), so the single sum is the specification's double
  sum over taps and offsets taken in the other order.
-/
import proofs.«140767_j82085414961669_2_alg».proof.Proof.Spec
import proofs.«140767_j82085414961669_2_alg».proof.Proof.LibGatherRead
import proofs.«140767_j82085414961669_2_alg».proof.Proof.Gen.ReferenceIdeal.Read
import Idealize.ShloMosaic.Lib.KernelVsHost
import Idealize.ShloMosaic.Lib.ValueIdx
import Idealize.ShloMosaic.PureOps.Ideal.Laws

noncomputable section
open scoped BigOperators
open Idealize.ShloMosaic Idealize.ShloMosaic.ValueIdx

namespace Cert.RefLeg
open Cert.ReferenceIdeal Cert.ReferenceIdeal.Gen Cert.ReferenceIdeal.Read Cert.ConvSpec

/-! ## The start indices: `l + k`, never negative, below 4102 -/

/-- The 32-bit word `l * 1 + k` for `l < 4096` and `k < 7` is the number `l + k`. -/
theorem start_toNat (l k : Nat) (hl : l < 4096) (hk : k < 7) :
    (BitVec.ofNat 32 l * 1#32 + BitVec.ofNat 32 k).toNat = l + k := by
  rw [BitVec.mul_one, BitVec.toNat_add, BitVec.toNat_ofNat, BitVec.toNat_ofNat]
  omega

/-- Read as a signed integer it is still `l + k`: the sign bit is clear. -/
theorem start_toInt (l k : Nat) (hl : l < 4096) (hk : k < 7) :
    (BitVec.ofNat 32 l * 1#32 + BitVec.ofNat 32 k).toInt = ((l + k : Nat) : Int) := by
  rw [BitVec.toInt_eq_toNat_cond, start_toNat l k hl hk, if_pos (by omega)]

/-- So the signed comparison with zero answers "not below". -/
theorem start_not_neg (l k : Nat) (hl : l < 4096) (hk : k < 7) :
    IntOp.cmpi .slt (BitVec.ofNat 32 l * 1#32 + BitVec.ofNat 32 k) 0#32 = 0#1 := by
  have h : (BitVec.ofNat 32 l * 1#32 + BitVec.ofNat 32 k).slt 0#32 = false := by
    rw [BitVec.slt, start_toInt l k hl hk, BitVec.toInt_zero]
    exact decide_eq_false (by omega)
  show BitVec.ofBool ((BitVec.ofNat 32 l * 1#32 + BitVec.ofNat 32 k).slt 0#32) = 0#1
  rw [h]; rfl

/-- The sum of the row number times one and the tap number, entry `(l, k)`. -/
theorem v9_at (l : Fin 4096) (k : Fin 7) :
    val_main_v9 (F := Ideal) (ix2 l k) = BitVec.ofNat 32 l.val * 1#32 + BitVec.ofNat 32 k.val := by
  rw [val_main_v9_apply, val_main_v7_apply, val_main_v4_apply, val_main_v2_apply, val_main_v1_apply, val_main_v3_apply,
    val_main_c_0_apply, val_main_v8_apply, val_main_v6_apply, val_main_v5_apply]
  rfl

/-- The wrap-around of negative indices leaves it alone. -/
theorem v14_at (l : Fin 4096) (k : Fin 7) :
    val_main_v14 (F := Ideal) (ix2 l k) = BitVec.ofNat 32 l.val * 1#32 + BitVec.ofNat 32 k.val := by
  rw [val_main_v14_apply, val_main_v11_apply, val_main_v10_apply, val_main_c_1_apply, v9_at,
    start_not_neg l.val k.val l.isLt k.isLt, select_zero]

/-- The start index stored at `[l, k, 0]`. -/
theorem v15_at (l : Fin 4096) (k : Fin 7) :
    val_main_v15 (F := Ideal) (ix3 l k ⟨0, Nat.one_pos⟩) = BitVec.ofNat 32 l.val * 1#32 + BitVec.ofNat 32 k.val := by
  have e : idx_main_v15 (ix3 l k (⟨0, Nat.one_pos⟩ : Fin 1)) = ix2 l k :=
    funext fun a => Fin.ext (by match a with | ⟨0, _⟩ => rfl | ⟨1, _⟩ => rfl)
  rw [val_main_v15_apply, e, v14_at]

/-! ## The padded input is the specification's padded row -/

/-- The padding value: the integer constant zero converted, which is the real zero. -/
theorem pad_value (i : S_.Idx) : val_main_call0_v0 (F := Ideal) i = 0 := by
  rw [val_main_call0_v0_apply, val_main_c_apply]
  show (((0#32 : BitVec 32).toInt : ℝ) : EReal) = 0
  rw [BitVec.toInt_zero, Int.cast_zero, EReal.coe_zero]

/-- Entry `(a, b, p)` of the padded input is entry `p` of the padded row numbered `a * 256 + b`. -/
theorem v0_at (x0 : FVec Ideal S16x256x4096 .f32) (a : Fin 16) (b : Fin 256) (p : Fin 4102) (bc : Fin 4096)
    (hbc : bc.val = a.val * 256 + b.val) :
    val_main_v0 (F := Ideal) x0 (ix3 a b p) = xpad x0 bc p := by
  have ha : a.val < 16 := a.isLt
  have hb : b.val < 256 := b.isLt
  unfold val_main_v0 xpad
  by_cases h : 3 ≤ p.val ∧ p.val < 4099
  · rw [dif_pos h]
    exact pad_apply_of_inside _ _ _ x0 _ pads_S16x256x4096_S16x256x4102_000_000_330 h_S_ _
      (ix3 (⟨bc.val / 256, by omega⟩ : Fin 16) (⟨bc.val % 256, by omega⟩ : Fin 256) (⟨p.val - 3, by omega⟩ : Fin 4096))
      (fun ax => match ax with
        | ⟨0, _⟩ => by show a.val = 0 + bc.val / 256 * (0 + 1); omega
        | ⟨1, _⟩ => by show b.val = 0 + bc.val % 256 * (0 + 1); omega
        | ⟨2, _⟩ => by show p.val = 3 + (p.val - 3) * (0 + 1); omega)
  · rw [dif_neg h]
    refine (pad_apply_of_not_inside _ _ _ x0 _ pads_S16x256x4096_S16x256x4102_000_000_330 h_S_ _ (2 : Fin 3) ?_).trans
      (pad_value _)
    intro hin
    have h1 : 3 ≤ p.val := hin.1
    have h2 : (p.val - 3) / (0 + 1) < 4096 := hin.2.2
    exact h ⟨h1, by omega⟩

/-! ## The weights, and the two arrangements of the double sum -/

/-- Row `q`, column `co` of the reshaped transposed weights is `w[co, q / 7, q % 7]`. -/
theorem v19_at (x1 : FVec Ideal S256x256x7 .f32) (R : Fin 65536) (co : Fin 256) (q : Fin 1792) :
    val_main_v19 (F := Ideal) x1 (ridx_main_v20 (ix2 R co) q)
      = x1 (ix3 co (⟨q.val / 7, by have := q.isLt; omega⟩ : Fin 256) (⟨q.val % 7, by omega⟩ : Fin 7)) := by
  have hq : q.val < 1792 := q.isLt
  have hco : co.val < 256 := co.isLt
  rw [val_main_v19_apply, val_main_v18_apply]
  refine congrArg x1 (funext fun a => Fin.ext ?_)
  match a with
  | ⟨0, _⟩ => show (q.val * 256 + co.val) % 256 = co.val; omega
  | ⟨1, _⟩ => show (q.val * 256 + co.val) / 1792 = q.val / 7; omega
  | ⟨2, _⟩ => show (q.val * 256 + co.val) / 256 % 7 = q.val % 7; omega

/-- A sum over `q < 1792` of a function of `(q / 7, q % 7)` is the double sum over the tap `k < 7` and the offset
    `j < 256`: `q ↦ (q / 7, q % 7)` is a bijection onto the pairs, and a finite double sum may be taken in either order.
    It holds in every additive commutative monoid, so on the extended reals with no finiteness. -/
theorem sum_div_mod {M : Type*} [AddCommMonoid M] (f : Fin 256 → Fin 7 → M) :
    ∑ q : Fin 1792, f ⟨q.val / 7, by have := q.isLt; omega⟩ ⟨q.val % 7, by omega⟩ = ∑ k : Fin 7, ∑ j : Fin 256, f j k := by
  show ∑ q : Fin (256 * 7), f ⟨q.val / 7, by have := q.isLt; omega⟩ ⟨q.val % 7, by omega⟩ = _
  rw [← Equiv.sum_comp (finProdFinEquiv (m := 256) (n := 7)), Fintype.sum_prod_type, Finset.sum_comm]
  refine Finset.sum_congr rfl fun k _ => Finset.sum_congr rfl fun j _ => ?_
  have hk : k.val < 7 := k.isLt
  have hj : j.val < 256 := j.isLt
  have e1 : (⟨(finProdFinEquiv (j, k)).val / 7, by have := (finProdFinEquiv (j, k)).isLt; omega⟩ : Fin 256) = j :=
    Fin.ext (by show (k.val + 7 * j.val) / 7 = j.val; omega)
  have e2 : (⟨(finProdFinEquiv (j, k)).val % 7, by omega⟩ : Fin 7) = k :=
    Fin.ext (by show (k.val + 7 * j.val) % 7 = k.val; omega)
  rw [e1, e2]

/-! ## The gathered patches, and the window of a row -/

/-- Entry `(a, b, l, k)` of the patches is the padded input at `(a, b, l + k)`: the start index `l + k` is at most 4101,
    so the clamp leaves it alone. -/
theorem v16_at (x0 : FVec Ideal S16x256x4096 .f32) (a : Fin 16) (b : Fin 256) (l : Fin 4096) (k : Fin 7) :
    val_main_v16 (F := Ideal) x0 (ix4 a b l k)
      = val_main_v0 (F := Ideal) x0
          (ix3 a b (⟨l.val + k.val, by have := l.isLt; have := k.isLt; omega⟩ : Fin 4102)) := by
  have hl : l.val < 4096 := l.isLt
  have hk : k.val < 7 := k.isLt
  unfold val_main_v16
  generalize val_main_v0 (F := Ideal) x0 = y
  refine (Cert.GatherRead.gather_window_apply (A := 16) (B := 256) (P := 4102) (R := 4096) (C := 7) (by omega)
    Facts₀.gather_S16x256x4102_S4096x7x1_S16x256x4096x7_01_2_n_n_2_2_162561_wf y (val_main_v15 (F := Ideal)) a b l k).trans ?_
  refine congrArg (fun p : Fin 4102 => y (ix3 a b p)) (Fin.ext ?_)
  show min (val_main_v15 (F := Ideal) (ix3 l k ⟨0, Nat.one_pos⟩)).toInt.toNat (4102 - 1) = l.val + k.val
  rw [v15_at, start_toInt l.val k.val hl hk, Int.toNat_natCast]
  omega

/-- Entry `(R, q)` of the reshaped patches is entry `q % 7 + q / 7` of the window of row `R`: the flat position
    `R * 1792 + q` is batch `R / 4096`, channel `R / 16 % 256`, position `R % 16 * 256 + q / 7`, tap `q % 7`. -/
theorem v17_at (x0 : FVec Ideal S16x256x4096 .f32) (R : Fin 65536) (co : Fin 256) (q : Fin 1792) :
    val_main_v17 (F := Ideal) x0 (lidx_main_v20 (ix2 R co) q)
      = win x0 R (⟨q.val % 7 + q.val / 7, by have := q.isLt; omega⟩ : Fin 262) := by
  have hR : R.val < 65536 := R.isLt
  have hq : q.val < 1792 := q.isLt
  have e : idx_main_v17 (lidx_main_v20 (ix2 R co) q)
      = ix4 (⟨(R.val * 1792 + q.val) / 7340032, by omega⟩ : Fin 16)
          (⟨(R.val * 1792 + q.val) / 28672 % 256, by omega⟩ : Fin 256)
          (⟨(R.val * 1792 + q.val) / 7 % 4096, by omega⟩ : Fin 4096)
          (⟨(R.val * 1792 + q.val) % 7, by omega⟩ : Fin 7) :=
    funext fun a => Fin.ext (by match a with | ⟨0, _⟩ => rfl | ⟨1, _⟩ => rfl | ⟨2, _⟩ => rfl | ⟨3, _⟩ => rfl)
  rw [val_main_v17_apply, e, v16_at]
  refine (v0_at x0 _ _ _ (⟨R.val / 16, by omega⟩ : Fin 4096) (by
    show R.val / 16 = (R.val * 1792 + q.val) / 7340032 * 256 + (R.val * 1792 + q.val) / 28672 % 256
    omega)).trans ?_
  unfold win
  exact congrArg (xpad x0 _) (Fin.ext (by
    show (R.val * 1792 + q.val) / 7 % 4096 + (R.val * 1792 + q.val) % 7 = R.val % 16 * 256 + (q.val % 7 + q.val / 7)
    omega))

/-! ## The reference is the specification -/

theorem ref_is_G (x0 : FVec Ideal S16x256x4096 .f32) (x1 : FVec Ideal S256x256x7 .f32) (x2 : FVec Ideal S256 .f32) :
    Cert.ReferenceIdeal.Read.val_main_v23 (F := Ideal) x0 x1 x2 = Cert.ConvSpec.G x0 x1 x2 := by
  funext i
  obtain ⟨R, co, rfl⟩ : ∃ (R : Fin 65536) (co : Fin 256), i = ix2 R co := ⟨i 0, i 1, eq_ix2 i⟩
  have eb : idx_main_v21 (idx_main_v22 (ix2 R co)) = ix1 co :=
    funext fun a => Fin.ext (by match a with | ⟨0, _⟩ => rfl)
  rw [val_main_v23_apply, val_main_v20_apply, val_main_v22_apply, val_main_v21_apply, eb]
  unfold G
  show (∑ q : Fin 1792, val_main_v17 (F := Ideal) x0 (lidx_main_v20 (ix2 R co) q)
        * val_main_v19 (F := Ideal) x1 (ridx_main_v20 (ix2 R co) q)) + x2 (ix1 co)
      = (∑ k : Fin 7, ∑ j : Fin 256, win x0 R ⟨k.val + j.val, _⟩ * x1 (ix3 co j k)) + x2 (ix1 co)
  refine congrArg (· + x2 (ix1 co)) ?_
  refine Eq.trans (Finset.sum_congr rfl fun q _ => ?_)
    (sum_div_mod (fun (j : Fin 256) (k : Fin 7) =>
      win x0 R ⟨k.val + j.val, by have := k.isLt; have := j.isLt; omega⟩ * x1 (ix3 co j k)))
  rw [v17_at, v19_at]

end Cert.RefLeg
end
-- ==== Proof.Payload.lean ====
import proofs.«140767_j82085414961669_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

/-!
# The kernel body's result at an entry

The body reads a 4096 × 262 block of input windows (as a high and a low part), the 7 × 256 × 256 weights (likewise) and
the bias, and leaves one 4096 × 256 block. This module reads that block at row `p` and column `q`: the sum over the
seven taps `k` of high·high + high·low + low·high — each a sum over the 256 offsets `j` of the window's entry
`(p, k + j)` times the weights' entry `(k, j, q)` — plus the bias at `q`.

The proof: a product into the zero block read at an entry is a sum over the offsets; one tap adds three such sums to the
running block; the layout operations (a cast to the same shape, a dropped leading unit axis, the bias row broadcast over
the rows) and the loads are read at an entry one by one; the four accumulating payloads are each two taps (the last one
tap and the bias); the one store covers the block. Addition on the extended reals is associative without any side
condition, so no finiteness is needed.
-/

noncomputable section

namespace Cert.KerLeg

open Cert.KernelIdeal Cert.KernelIdeal.Gen
open Idealize.ShloMosaic Idealize.ShloMosaic.ValueIdx

/-! ## One product of a window block and a tap's weights, read at an entry -/

/-- The products' dimension numbers: rows by offsets times offsets by columns. -/
abbrev DD : DotDims S4096x256 S256x256 S4096x256 := dot_S4096x256_S256x256_S4096x256_1_0_0_1_n_n

theorem lhs_row (i : S4096x256.Idx) (c : DD.contr.Idx) : (DD.lhsIdx i c 0).val = (i 0).val := by
  unfold DotDims.lhsIdx
  rw [dif_neg (show ¬(0 : Fin S4096x256.rank) ∈ DD.lhsBatch by decide),
    dif_pos (show (0 : Fin S4096x256.rank) ∈ DD.lhsNonContracting by decide)]
  rfl

theorem lhs_col (i : S4096x256.Idx) (c : DD.contr.Idx) : (DD.lhsIdx i c 1).val = (c ⟨0, by decide⟩).val :=
  DD.lhsIdx_val_of_single rfl i c

theorem rhs_row (i : S4096x256.Idx) (c : DD.contr.Idx) : (DD.rhsIdx i c 0).val = (c ⟨0, by decide⟩).val :=
  DD.rhsIdx_val_of_single rfl i c

theorem rhs_col (i : S4096x256.Idx) (c : DD.contr.Idx) : (DD.rhsIdx i c 1).val = (i 1).val := by
  unfold DotDims.rhsIdx
  rw [dif_neg (show ¬(1 : Fin S256x256.rank) ∈ DD.rhsBatch by decide),
    dif_pos (show (1 : Fin S256x256.rank) ∈ DD.rhsNonContracting by decide)]
  rfl

/-- A product accumulated into the zero block is, at row `p` and column `q`, the sum over the 256 offsets of the
    left operand's entry `(p, j)` times the right operand's entry `(j, q)`. -/
theorem matmul_zero_apply (a : FVec Ideal S4096x256 .bf16) (b : FVec Ideal S256x256 .bf16) (p : Fin 4096) (q : Fin 256) :
    matmul (F := Ideal) DD none a b (constant (F := Ideal) S4096x256 .f32 0x00000000#32) (ix2 p q)
      = ∑ j : Fin 256, a (ix2 p j) * b (ix2 j q) := by
  simp only [matmul]
  rw [Ideal.matmul_constant_zero_apply, ← Equiv.sum_comp (contrEquiv1 DD 256 rfl rfl).symm]
  refine Finset.sum_congr rfl fun k _ => ?_
  have hk := contrEquiv1_symm_val DD 256 rfl rfl k
  have el : DD.lhsIdx (ix2 p q) ((contrEquiv1 DD 256 rfl rfl).symm k) = ix2 p k := funext fun a => Fin.ext (by
    match a with
    | ⟨0, _⟩ => exact lhs_row _ _
    | ⟨1, _⟩ => exact (lhs_col _ _).trans hk)
  have er : DD.rhsIdx (ix2 p q) ((contrEquiv1 DD 256 rfl rfl).symm k) = ix2 k q := funext fun a => Fin.ext (by
    match a with
    | ⟨0, _⟩ => exact (rhs_row _ _).trans hk
    | ⟨1, _⟩ => exact rhs_col _ _)
  rw [el, er]

/-! ## One tap: three products added into the running block -/

/-- The zero block every product accumulates into. -/
abbrev Z0 : FVec Ideal S4096x256 .f32 := constant (F := Ideal) S4096x256 .f32 0x00000000#32

/-- One tap's step: high·high, high·low and low·high added, in this order, into the running block. -/
def tap (acc : FVec Ideal S4096x256 .f32) (hi lo : FVec Ideal S4096x256 .bf16) (whi wlo : FVec Ideal S256x256 .bf16) :
    FVec Ideal S4096x256 .f32 :=
  addf (addf (addf acc (matmul (F := Ideal) DD none hi whi Z0)) (matmul (F := Ideal) DD none hi wlo Z0))
    (matmul (F := Ideal) DD none lo whi Z0)

/-- What one tap adds at row `p` and column `q`: the three sums over the offsets. -/
def tapSum (hi lo : FVec Ideal S4096x256 .bf16) (whi wlo : FVec Ideal S256x256 .bf16) (p : Fin 4096) (q : Fin 256) : EReal :=
  (∑ j : Fin 256, hi (ix2 p j) * whi (ix2 j q)) + (∑ j : Fin 256, hi (ix2 p j) * wlo (ix2 j q))
    + (∑ j : Fin 256, lo (ix2 p j) * whi (ix2 j q))

theorem tap_apply (acc : FVec Ideal S4096x256 .f32) (hi lo : FVec Ideal S4096x256 .bf16) (whi wlo : FVec Ideal S256x256 .bf16)
    (p : Fin 4096) (q : Fin 256) :
    tap acc hi lo whi wlo (ix2 p q) = acc (ix2 p q) + tapSum hi lo whi wlo p q := by
  unfold tap tapSum
  rw [addf_apply, addf_apply, addf_apply, matmul_zero_apply, matmul_zero_apply, matmul_zero_apply, add_assoc, add_assoc,
    add_assoc]

/-! ## The layout operations read at an entry -/

/-- A tap's weights with the leading unit axis dropped. -/
def cw (v : FVec Ideal S1x256x256 .bf16) : FVec Ideal S256x256 .bf16 :=
  shapeCast S256x256 v shapeCasts_S1x256x256_S256x256

theorem cw_apply (v : FVec Ideal S1x256x256 .bf16) (j q : Fin 256) : cw v (ix2 j q) = v (ix3 (0 : Fin 1) j q) :=
  shapeCast_1ab_ab_apply v shapeCasts_S1x256x256_S256x256 j q

/-- The cast of a window block to its own shape changes nothing. -/
theorem cast_id (v : FVec Ideal S4096x256 .bf16) : shapeCast S4096x256 v shapeCasts_S4096x256_S4096x256 = v :=
  shapeCast_self v shapeCasts_S4096x256_S4096x256

/-- The bias row broadcast over the rows reads, at `(p, q)`, the bias at `q`. -/
theorem bias_apply (v : FVec Ideal S256 .f32) (p : Fin 4096) (q : Fin 256) :
    broadcastTo S4096x256 (shapeCast S1x256 v shapeCasts_S256_S1x256) broadcasts_S1x256_S4096x256 (ix2 p q) = v (ix1 q) :=
  (broadcastTo_1b_ab_apply (shapeCast S1x256 v shapeCasts_S256_S1x256) broadcasts_S1x256_S4096x256 p q).trans
    (shapeCast_a_1a_apply v shapeCasts_S256_S1x256 (0 : Fin 1) q)

/-! ## The payloads at an entry -/

theorem pay2_apply (v1 v3 : FVec Ideal S4096x256 .bf16) (v5 v7 : FVec Ideal S1x256x256 .bf16)
    (v15 v17 : FVec Ideal S4096x256 .bf16) (v19 v21 : FVec Ideal S1x256x256 .bf16) (p : Fin 4096) (q : Fin 256) :
    k0_pay2 (F := Ideal) v1 v3 v5 v7 v15 v17 v19 v21 (ix2 p q)
      = tapSum v1 v3 (cw v5) (cw v7) p q + tapSum v15 v17 (cw v19) (cw v21) p q := by
  show tap (tap (broadcast S4096x256 (Scalar.ofBits (F := Ideal) .f32 0x00000000#32))
      (shapeCast S4096x256 v1 shapeCasts_S4096x256_S4096x256) (shapeCast S4096x256 v3 shapeCasts_S4096x256_S4096x256) (cw v5) (cw v7))
      (shapeCast S4096x256 v15 shapeCasts_S4096x256_S4096x256) (shapeCast S4096x256 v17 shapeCasts_S4096x256_S4096x256) (cw v19) (cw v21)
      (ix2 p q) = _
  rw [tap_apply, tap_apply, cast_id, cast_id, cast_id, cast_id, broadcast_apply]
  show Ideal.ofBits .f32 0x00000000#32 + _ + _ = _
  rw [Ideal.ofBits_zero_f32, zero_add]

theorem pay3_apply (v28 : FVec Ideal S4096x256 .f32) (v29 v31 : FVec Ideal S4096x256 .bf16) (v33 v35 : FVec Ideal S1x256x256 .bf16)
    (v43 v45 : FVec Ideal S4096x256 .bf16) (v47 v49 : FVec Ideal S1x256x256 .bf16) (p : Fin 4096) (q : Fin 256) :
    k0_pay3 (F := Ideal) v28 v29 v31 v33 v35 v43 v45 v47 v49 (ix2 p q)
      = v28 (ix2 p q) + tapSum v29 v31 (cw v33) (cw v35) p q + tapSum v43 v45 (cw v47) (cw v49) p q := by
  show tap (tap v28
      (shapeCast S4096x256 v29 shapeCasts_S4096x256_S4096x256) (shapeCast S4096x256 v31 shapeCasts_S4096x256_S4096x256) (cw v33) (cw v35))
      (shapeCast S4096x256 v43 shapeCasts_S4096x256_S4096x256) (shapeCast S4096x256 v45 shapeCasts_S4096x256_S4096x256) (cw v47) (cw v49)
      (ix2 p q) = _
  rw [tap_apply, tap_apply, cast_id, cast_id, cast_id, cast_id]

theorem pay6_apply (v56 : FVec Ideal S4096x256 .f32) (v58 v60 : FVec Ideal S4096x256 .bf16) (v61 v63 : FVec Ideal S1x256x256 .bf16)
    (v71 v73 : FVec Ideal S4096x256 .bf16) (v75 v77 : FVec Ideal S1x256x256 .bf16) (p : Fin 4096) (q : Fin 256) :
    k0_pay6 (F := Ideal) v56 v58 v60 v61 v63 v71 v73 v75 v77 (ix2 p q)
      = v56 (ix2 p q) + tapSum v58 v60 (cw v61) (cw v63) p q + tapSum v71 v73 (cw v75) (cw v77) p q := by
  show tap (tap v56 v58 v60 (cw v61) (cw v63))
      (shapeCast S4096x256 v71 shapeCasts_S4096x256_S4096x256) (shapeCast S4096x256 v73 shapeCasts_S4096x256_S4096x256) (cw v75) (cw v77)
      (ix2 p q) = _
  rw [tap_apply, tap_apply, cast_id, cast_id]

theorem pay1_apply (v84 : FVec Ideal S4096x256 .f32) (v86 v88 : FVec Ideal S4096x256 .bf16) (v90 : FVec Ideal S256x256 .bf16)
    (v91 : FVec Ideal S1x256x256 .bf16) (v99 : FVec Ideal S256 .f32) (p : Fin 4096) (q : Fin 256) :
    k0_pay1 (F := Ideal) v84 v86 v88 v90 v91 v99 (ix2 p q)
      = v84 (ix2 p q) + tapSum v86 v88 v90 (cw v91) p q + v99 (ix1 q) := by
  show addf (tap v84 v86 v88 v90 (cw v91))
      (broadcastTo S4096x256 (shapeCast S1x256 v99 shapeCasts_S256_S1x256) broadcasts_S1x256_S4096x256) (ix2 p q) = _
  rw [addf_apply, tap_apply, bias_apply]

theorem pay4_eq (v : FVec Ideal S4096x256 .bf16) : k0_pay4 (F := Ideal) v = v := cast_id v
theorem pay5_eq (v : FVec Ideal S4096x256 .bf16) : k0_pay5 (F := Ideal) v = v := cast_id v
theorem pay7_eq (v : FVec Ideal S4096x256 .bf16) : k0_pay7 (F := Ideal) v = v := cast_id v
theorem pay8_eq (v : FVec Ideal S4096x256 .bf16) : k0_pay8 (F := Ideal) v = v := cast_id v
theorem pay9_eq (v : FVec Ideal S1x256x256 .bf16) : k0_pay9 (F := Ideal) v = cw v := rfl

/-! ## The loads at an entry -/

/-- The window's columns `c .. c+255`, loaded as a block, read at `(p, j)` the window's entry `(p, c + j)`. -/
theorem ld_win (x : FVec Ideal S4096x262 .bf16) (c : Nat) (hc : c ≤ 6)
    (inb : ∀ a, (![0, c] : Fin 2 → Nat) a + S4096x256.size a ≤ S4096x262.size a) (p : Fin 4096) (j : Fin 256) :
    View.ld (Val := Elt Ideal) (e' := .bf16) x (Rect.unit (s := S4096x262) ![0, c] S4096x256.size inb) (ix2 p j)
      = x (ix2 p ⟨c + j.val, by have := j.isLt; omega⟩) :=
  congrArg x (funext fun a => Fin.ext (by
    match a with
    | ⟨0, _⟩ => show 0 + 1 * p.val = p.val; omega
    | ⟨1, _⟩ => show c + 1 * j.val = c + j.val; omega))

/-- Tap `c`'s weights, loaded as a block with a leading unit axis, read at `(0, j, q)` the weights' entry `(c, j, q)`. -/
theorem ld_tap (w : FVec Ideal S7x256x256 .bf16) (c : Nat) (hc : c < 7)
    (inb : ∀ a, (![c, 0, 0] : Fin 3 → Nat) a + S1x256x256.size a ≤ S7x256x256.size a) (u : Fin 1) (j q : Fin 256) :
    View.ld (Val := Elt Ideal) (e' := .bf16) w (Rect.unit (s := S7x256x256) ![c, 0, 0] S1x256x256.size inb) (ix3 u j q) = w (ix3 ⟨c, hc⟩ j q) :=
  congrArg w (funext fun a => Fin.ext (by
    match a with
    | ⟨0, _⟩ => show c + 1 * u.val = c; have := u.isLt; omega
    | ⟨1, _⟩ => show 0 + 1 * j.val = j.val; omega
    | ⟨2, _⟩ => show 0 + 1 * q.val = q.val; omega))

/-- The whole bias, loaded, is the bias. -/
theorem ld_bias (b : FVec Ideal S256 .f32) (inb : ∀ a, (![0] : Fin 1 → Nat) a + S256.size a ≤ S256.size a) :
    View.ld (Val := Elt Ideal) (e' := .f32) b (Rect.unit (s := S256) ![0] S256.size inb) = b :=
  View.ld_unit_zero (Val := Elt Ideal) (e := .f32) (funext fun a => by match a with | ⟨0, _⟩ => rfl) inb b

/-! ## The seven taps -/

/-- Tap `k`'s contribution at row `p` and column `q`, over the window and the weights themselves. -/
def tapOf (x0 x1 : FVec Ideal S4096x262 .bf16) (x2 x3 : FVec Ideal S7x256x256 .bf16) (p : Fin 4096) (q : Fin 256) (k : Fin 7) : EReal :=
  (∑ j : Fin 256, x0 (ix2 p ⟨k.val + j.val, by have := k.isLt; have := j.isLt; omega⟩) * x2 (ix3 k j q))
    + (∑ j : Fin 256, x0 (ix2 p ⟨k.val + j.val, by have := k.isLt; have := j.isLt; omega⟩) * x3 (ix3 k j q))
    + (∑ j : Fin 256, x1 (ix2 p ⟨k.val + j.val, by have := k.isLt; have := j.isLt; omega⟩) * x2 (ix3 k j q))

/-- One tap's sums over its loaded blocks are that tap's contribution. -/
theorem tap_loads (x0 x1 : FVec Ideal S4096x262 .bf16) (x2 x3 : FVec Ideal S7x256x256 .bf16) (c : Nat) (hc : c < 7)
    (inbw : ∀ a, (![0, c] : Fin 2 → Nat) a + S4096x256.size a ≤ S4096x262.size a)
    (inbk : ∀ a, (![c, 0, 0] : Fin 3 → Nat) a + S1x256x256.size a ≤ S7x256x256.size a) (p : Fin 4096) (q : Fin 256) :
    tapSum (View.ld (Val := Elt Ideal) (e' := .bf16) x0 (Rect.unit (s := S4096x262) ![0, c] S4096x256.size inbw))
        (View.ld (Val := Elt Ideal) (e' := .bf16) x1 (Rect.unit (s := S4096x262) ![0, c] S4096x256.size inbw))
        (cw (View.ld (Val := Elt Ideal) (e' := .bf16) x2 (Rect.unit (s := S7x256x256) ![c, 0, 0] S1x256x256.size inbk)))
        (cw (View.ld (Val := Elt Ideal) (e' := .bf16) x3 (Rect.unit (s := S7x256x256) ![c, 0, 0] S1x256x256.size inbk))) p q
      = tapOf x0 x1 x2 x3 p q ⟨c, hc⟩ := by
  unfold tapSum tapOf
  have hc6 : c ≤ 6 := by omega
  refine congrArg₂ (· + ·) (congrArg₂ (· + ·) (Finset.sum_congr rfl fun j _ => ?_) (Finset.sum_congr rfl fun j _ => ?_))
    (Finset.sum_congr rfl fun j _ => ?_)
  · rw [cw_apply]
    exact congrArg₂ (· * ·) (ld_win x0 c hc6 inbw p j) (ld_tap x2 c hc inbk 0 j q)
  · rw [cw_apply]
    exact congrArg₂ (· * ·) (ld_win x0 c hc6 inbw p j) (ld_tap x3 c hc inbk 0 j q)
  · rw [cw_apply]
    exact congrArg₂ (· * ·) (ld_win x1 c hc6 inbw p j) (ld_tap x2 c hc inbk 0 j q)

/-! ## The body's one store -/

/-- The stored block over the loaded blocks: the four payloads composed as the body composes them. -/
def body (a0 b0 : FVec Ideal S4096x256 .bf16) (w0 u0 : FVec Ideal S1x256x256 .bf16)
    (a1 b1 : FVec Ideal S4096x256 .bf16) (w1 u1 : FVec Ideal S1x256x256 .bf16)
    (a2 b2 : FVec Ideal S4096x256 .bf16) (w2 u2 : FVec Ideal S1x256x256 .bf16)
    (a3 b3 : FVec Ideal S4096x256 .bf16) (w3 u3 : FVec Ideal S1x256x256 .bf16)
    (a4 b4 : FVec Ideal S4096x256 .bf16) (w4 u4 : FVec Ideal S1x256x256 .bf16)
    (a5 b5 : FVec Ideal S4096x256 .bf16) (w5 u5 : FVec Ideal S1x256x256 .bf16)
    (a6 b6 : FVec Ideal S4096x256 .bf16) (w6 u6 : FVec Ideal S1x256x256 .bf16)
    (bias : FVec Ideal S256 .f32) : FVec Ideal S4096x256 .f32 :=
  k0_pay1 (F := Ideal) (k0_pay6 (k0_pay3 (k0_pay2 a0 b0 w0 u0 a1 b1 w1 u1) a2 b2 w2 u2 a3 b3 w3 u3) (k0_pay4 a4) (k0_pay5 b4) w4 u4 a5 b5 w5 u5)
    (k0_pay7 a6) (k0_pay8 b6) (k0_pay9 w6) u6 bias

theorem body_apply (a0 b0 : FVec Ideal S4096x256 .bf16) (w0 u0 : FVec Ideal S1x256x256 .bf16)
    (a1 b1 : FVec Ideal S4096x256 .bf16) (w1 u1 : FVec Ideal S1x256x256 .bf16)
    (a2 b2 : FVec Ideal S4096x256 .bf16) (w2 u2 : FVec Ideal S1x256x256 .bf16)
    (a3 b3 : FVec Ideal S4096x256 .bf16) (w3 u3 : FVec Ideal S1x256x256 .bf16)
    (a4 b4 : FVec Ideal S4096x256 .bf16) (w4 u4 : FVec Ideal S1x256x256 .bf16)
    (a5 b5 : FVec Ideal S4096x256 .bf16) (w5 u5 : FVec Ideal S1x256x256 .bf16)
    (a6 b6 : FVec Ideal S4096x256 .bf16) (w6 u6 : FVec Ideal S1x256x256 .bf16)
    (bias : FVec Ideal S256 .f32) (p : Fin 4096) (q : Fin 256) :
    body a0 b0 w0 u0 a1 b1 w1 u1 a2 b2 w2 u2 a3 b3 w3 u3 a4 b4 w4 u4 a5 b5 w5 u5 a6 b6 w6 u6 bias (ix2 p q)
      = tapSum a0 b0 (cw w0) (cw u0) p q + tapSum a1 b1 (cw w1) (cw u1) p q + tapSum a2 b2 (cw w2) (cw u2) p q
        + tapSum a3 b3 (cw w3) (cw u3) p q + tapSum a4 b4 (cw w4) (cw u4) p q + tapSum a5 b5 (cw w5) (cw u5) p q
        + tapSum a6 b6 (cw w6) (cw u6) p q + bias (ix1 q) := by
  unfold body
  rw [pay1_apply, pay6_apply, pay3_apply, pay2_apply, pay4_eq, pay5_eq, pay7_eq, pay8_eq, pay9_eq]

/-- The zero offsets of the one store, as the constant function. -/
theorem off_zero2 : (![0, 0] : Fin 2 → Nat) = fun _ => 0 :=
  funext fun a => by match a with | ⟨0, _⟩ => rfl | ⟨1, _⟩ => rfl

/-- The output block is the stored block over the loads: its one store covers it. -/
theorem out_eq_body (x0 x1 : FVec Ideal S4096x262 .bf16) (x2 x3 : FVec Ideal S7x256x256 .bf16) (x4 : FVec Ideal S256 .f32) :
    out0_5 (F := Ideal) x0 x1 x2 x3 x4
      = body (View.ld (Val := Elt Ideal) (e' := .bf16) x0 r0_0) (View.ld (Val := Elt Ideal) (e' := .bf16) x1 r0_0) (View.ld (Val := Elt Ideal) (e' := .bf16) x2 r0_1) (View.ld (Val := Elt Ideal) (e' := .bf16) x3 r0_1)
          (View.ld (Val := Elt Ideal) (e' := .bf16) x0 r0_2) (View.ld (Val := Elt Ideal) (e' := .bf16) x1 r0_2) (View.ld (Val := Elt Ideal) (e' := .bf16) x2 r0_3) (View.ld (Val := Elt Ideal) (e' := .bf16) x3 r0_3)
          (View.ld (Val := Elt Ideal) (e' := .bf16) x0 r0_4) (View.ld (Val := Elt Ideal) (e' := .bf16) x1 r0_4) (View.ld (Val := Elt Ideal) (e' := .bf16) x2 r0_5) (View.ld (Val := Elt Ideal) (e' := .bf16) x3 r0_5)
          (View.ld (Val := Elt Ideal) (e' := .bf16) x0 r0_6) (View.ld (Val := Elt Ideal) (e' := .bf16) x1 r0_6) (View.ld (Val := Elt Ideal) (e' := .bf16) x2 r0_7) (View.ld (Val := Elt Ideal) (e' := .bf16) x3 r0_7)
          (View.ld (Val := Elt Ideal) (e' := .bf16) x0 r0_8) (View.ld (Val := Elt Ideal) (e' := .bf16) x1 r0_8) (View.ld (Val := Elt Ideal) (e' := .bf16) x2 r0_9) (View.ld (Val := Elt Ideal) (e' := .bf16) x3 r0_9)
          (View.ld (Val := Elt Ideal) (e' := .bf16) x0 r0_10) (View.ld (Val := Elt Ideal) (e' := .bf16) x1 r0_10) (View.ld (Val := Elt Ideal) (e' := .bf16) x2 r0_11) (View.ld (Val := Elt Ideal) (e' := .bf16) x3 r0_11)
          (View.ld (Val := Elt Ideal) (e' := .bf16) x0 r0_12) (View.ld (Val := Elt Ideal) (e' := .bf16) x1 r0_12) (View.ld (Val := Elt Ideal) (e' := .bf16) x2 r0_13) (View.ld (Val := Elt Ideal) (e' := .bf16) x3 r0_13)
          (View.ld (Val := Elt Ideal) (e' := .f32) x4 r0_14) := by
  unfold out0_5 body
  exact View.canon_unit_zero off_zero2 inb_S4096x256_S4096x256_0_0 _

/-! ## The body's result at an entry -/

theorem out_apply (x0 x1 : FVec Ideal S4096x262 .bf16) (x2 x3 : FVec Ideal S7x256x256 .bf16) (x4 : FVec Ideal S256 .f32)
    (p : Fin 4096) (q : Fin 256) :
    out0_5 (F := Ideal) x0 x1 x2 x3 x4 (ix2 p q)
      = (∑ k : Fin 7,
          ((∑ j : Fin 256, x0 (ix2 p ⟨k.val + j.val, by have := k.isLt; have := j.isLt; omega⟩) * x2 (ix3 k j q))
            + (∑ j : Fin 256, x0 (ix2 p ⟨k.val + j.val, by have := k.isLt; have := j.isLt; omega⟩) * x3 (ix3 k j q))
            + (∑ j : Fin 256, x1 (ix2 p ⟨k.val + j.val, by have := k.isLt; have := j.isLt; omega⟩) * x2 (ix3 k j q))))
        + x4 (ix1 q) := by
  show _ = (∑ k : Fin 7, tapOf x0 x1 x2 x3 p q k) + x4 (ix1 q)
  rw [out_eq_body, body_apply, Fin.sum_univ_seven]
  have e0 : tapSum (View.ld (Val := Elt Ideal) (e' := .bf16) x0 r0_0) (View.ld (Val := Elt Ideal) (e' := .bf16) x1 r0_0) (cw (View.ld (Val := Elt Ideal) (e' := .bf16) x2 r0_1)) (cw (View.ld (Val := Elt Ideal) (e' := .bf16) x3 r0_1)) p q = tapOf x0 x1 x2 x3 p q 0 :=
    tap_loads x0 x1 x2 x3 0 (by omega) inb_S4096x262_S4096x256_0_0 inb_S7x256x256_S1x256x256_0_0_0 p q
  have e1 : tapSum (View.ld (Val := Elt Ideal) (e' := .bf16) x0 r0_2) (View.ld (Val := Elt Ideal) (e' := .bf16) x1 r0_2) (cw (View.ld (Val := Elt Ideal) (e' := .bf16) x2 r0_3)) (cw (View.ld (Val := Elt Ideal) (e' := .bf16) x3 r0_3)) p q = tapOf x0 x1 x2 x3 p q 1 :=
    tap_loads x0 x1 x2 x3 1 (by omega) inb_S4096x262_S4096x256_0_1 inb_S7x256x256_S1x256x256_1_0_0 p q
  have e2 : tapSum (View.ld (Val := Elt Ideal) (e' := .bf16) x0 r0_4) (View.ld (Val := Elt Ideal) (e' := .bf16) x1 r0_4) (cw (View.ld (Val := Elt Ideal) (e' := .bf16) x2 r0_5)) (cw (View.ld (Val := Elt Ideal) (e' := .bf16) x3 r0_5)) p q = tapOf x0 x1 x2 x3 p q 2 :=
    tap_loads x0 x1 x2 x3 2 (by omega) inb_S4096x262_S4096x256_0_2 inb_S7x256x256_S1x256x256_2_0_0 p q
  have e3 : tapSum (View.ld (Val := Elt Ideal) (e' := .bf16) x0 r0_6) (View.ld (Val := Elt Ideal) (e' := .bf16) x1 r0_6) (cw (View.ld (Val := Elt Ideal) (e' := .bf16) x2 r0_7)) (cw (View.ld (Val := Elt Ideal) (e' := .bf16) x3 r0_7)) p q = tapOf x0 x1 x2 x3 p q 3 :=
    tap_loads x0 x1 x2 x3 3 (by omega) inb_S4096x262_S4096x256_0_3 inb_S7x256x256_S1x256x256_3_0_0 p q
  have e4 : tapSum (View.ld (Val := Elt Ideal) (e' := .bf16) x0 r0_8) (View.ld (Val := Elt Ideal) (e' := .bf16) x1 r0_8) (cw (View.ld (Val := Elt Ideal) (e' := .bf16) x2 r0_9)) (cw (View.ld (Val := Elt Ideal) (e' := .bf16) x3 r0_9)) p q = tapOf x0 x1 x2 x3 p q 4 :=
    tap_loads x0 x1 x2 x3 4 (by omega) inb_S4096x262_S4096x256_0_4 inb_S7x256x256_S1x256x256_4_0_0 p q
  have e5 : tapSum (View.ld (Val := Elt Ideal) (e' := .bf16) x0 r0_10) (View.ld (Val := Elt Ideal) (e' := .bf16) x1 r0_10) (cw (View.ld (Val := Elt Ideal) (e' := .bf16) x2 r0_11)) (cw (View.ld (Val := Elt Ideal) (e' := .bf16) x3 r0_11)) p q = tapOf x0 x1 x2 x3 p q 5 :=
    tap_loads x0 x1 x2 x3 5 (by omega) inb_S4096x262_S4096x256_0_5 inb_S7x256x256_S1x256x256_5_0_0 p q
  have e6 : tapSum (View.ld (Val := Elt Ideal) (e' := .bf16) x0 r0_12) (View.ld (Val := Elt Ideal) (e' := .bf16) x1 r0_12) (cw (View.ld (Val := Elt Ideal) (e' := .bf16) x2 r0_13)) (cw (View.ld (Val := Elt Ideal) (e' := .bf16) x3 r0_13)) p q = tapOf x0 x1 x2 x3 p q 6 :=
    tap_loads x0 x1 x2 x3 6 (by omega) inb_S4096x262_S4096x256_0_6 inb_S7x256x256_S1x256x256_6_0_0 p q
  have eb : View.ld (Val := Elt Ideal) (e' := .f32) x4 r0_14 = x4 := ld_bias x4 inb_S256_S256_0
  rw [e0, e1, e2, e3, e4, e5, e6, eb]

end Cert.KerLeg

end
-- ==== Proof.HostLeg.lean ====
/-
  What the host operations before the kernel's launch leave in the four arrays the kernel reads.

  The input `x : [16, 256, 4096]` is padded by three zeros at each end of its last axis, and every padded row is read
  through 16 overlapping windows of 262 entries, window `q` starting at position `q * 256`: a gather at the start
  indices `q * 256 + jj`, reshaped to `[65536, 262]`, whose row `r` is window `r % 16` of the row of batch `r / 4096`
  and input channel `r / 16 % 256`. That is the specification's `win x r jj`. The weights are transposed to
  `[7, 256, 256]`. Each of the two arrays is then split into a high part — the array with its float format narrowed,
  which on the extended reals is the array itself — and a low part — the array minus its high part, which is zero
  wherever the entry is a real number (at an infinity `∞ - ∞` is not `0`, hence the hypothesis `AllReal`).
-/
import proofs.«140767_j82085414961669_2_alg».proof.Proof.Spec
import proofs.«140767_j82085414961669_2_alg».proof.Proof.LibGatherRead
import proofs.«140767_j82085414961669_2_alg».proof.Proof.Gen.KernelIdeal.Frame
import Idealize.ShloMosaic.Lib.ValueIdx
import Idealize.ShloMosaic.Lib.Pipeline.Value
import Idealize.ShloMosaic.Lib.KernelVsHost
import Idealize.ShloMosaic.Lib.StableHlo.Run

noncomputable section
open Idealize.ShloMosaic Idealize.ShloMosaic.ValueIdx Idealize.ShloMosaic.TcCoe Idealize.SL.Sem

namespace Cert.HostLeg
open Cert.KernelIdeal Cert.KernelIdeal.Gen

/-- Every entry of the array is a real number (neither infinity). -/
def AllReal {S : Shape} (x : S.Idx → EReal) : Prop := ∀ i, ∃ r : ℝ, x i = (r : EReal)

/-! ## The start index of a window entry, as a 32-bit word

Window `qv` of a padded row starts at position `qv * 256`; its entry `jj` is read at position `qv * 256 + jj`, computed
in 32-bit arithmetic. With `qv < 16` and `jj < 262` the position is at most 4101: nothing wraps, the word is not
negative, and it is inside the padded row of 4102 entries. -/

/-- The word's value as a natural number. -/
theorem startWord_toNat (qv jj : Nat) (hq : qv < 16) (hj : jj < 262) :
    (BitVec.ofNat 32 qv * 256#32 + BitVec.ofNat 32 jj).toNat = qv * 256 + jj := by
  rw [BitVec.toNat_add, BitVec.toNat_mul, BitVec.toNat_ofNat, BitVec.toNat_ofNat, BitVec.toNat_ofNat]
  omega

/-- Read as a signed integer it is the same number. -/
theorem startWord_toInt (qv jj : Nat) (hq : qv < 16) (hj : jj < 262) :
    (BitVec.ofNat 32 qv * 256#32 + BitVec.ofNat 32 jj).toInt = ((qv * 256 + jj : Nat) : Int) := by
  rw [BitVec.toInt_eq_toNat_of_lt (by rw [startWord_toNat qv jj hq hj]; omega), startWord_toNat qv jj hq hj]

/-- The program replaces a negative start index `s` by `s + 4102`; this one is not negative and is kept. -/
theorem startWord_select (qv jj : Nat) (hq : qv < 16) (hj : jj < 262) :
    Scalar.select (IntOp.cmpi .slt (BitVec.ofNat 32 qv * 256#32 + BitVec.ofNat 32 jj) 0#32)
        (BitVec.ofNat 32 qv * 256#32 + BitVec.ofNat 32 jj + 4102#32) (BitVec.ofNat 32 qv * 256#32 + BitVec.ofNat 32 jj)
      = BitVec.ofNat 32 qv * 256#32 + BitVec.ofNat 32 jj := by
  have h : IntOp.cmpi .slt (BitVec.ofNat 32 qv * 256#32 + BitVec.ofNat 32 jj) 0#32 = 0#1 := by
    show BitVec.ofBool ((BitVec.ofNat 32 qv * 256#32 + BitVec.ofNat 32 jj).slt 0#32) = 0#1
    rw [BitVec.slt_eq_decide, startWord_toInt qv jj hq hj, BitVec.toInt_zero, decide_eq_false (by omega)]
    rfl
  rw [h, select_zero]

/-! ## The start indices as the program builds them -/

/-- `qv * 256 + jj` over the 16 windows and the 262 entries of a window: an iota along each axis, the first multiplied
    by the constant 256, both broadcast to `[16, 262]` and added. -/
def idx0 : IVec S16x262 32 :=
  addi
    (broadcastInDim S16x262 ![0, 1] bcast_S16x1_S16x262_0_1
      (muli (broadcastInDim S16x1 ![0] bcast_S16_S16x1_0 (iotaInDim S16 32 0))
        (broadcastInDim S16x1 ![] bcast_S_S16x1 (constantI S_ 32 256#32))))
    (broadcastInDim S16x262 ![0, 1] bcast_S1x262_S16x262_0_1
      (broadcastInDim S1x262 ![1] bcast_S262_S1x262_1 (iotaInDim S262 32 0)))

/-- The start indices handed to the gather: `idx0` with negative entries moved up by 4102, as `[16, 262, 1]`. -/
def startIdx : IVec S16x262x1 32 :=
  broadcastInDim S16x262x1 ![0, 1] bcast_S16x262_S16x262x1_0_1
    (select (cmpi .slt idx0 (broadcastInDim S16x262 ![] bcast_S_S16x262 (constantI S_ 32 0#32)))
      (addi idx0 (broadcastInDim S16x262 ![] bcast_S_S16x262 (constantI S_ 32 4102#32)))
      idx0)

/-- Entry `(qv, jj)` of the start indices is the word `qv * 256 + jj`. -/
theorem startIdx_apply (qv : Fin 16) (jj : Fin 262) :
    startIdx (ix3 qv jj ⟨0, Nat.one_pos⟩) = BitVec.ofNat 32 qv.val * 256#32 + BitVec.ofNat 32 jj.val := by
  refine Eq.trans ?_ (startWord_select qv.val jj.val qv.isLt jj.isLt)
  rfl

/-! ## The padded input, the gather and the reshape -/

/-- The input padded by three zeros at each end of its last axis (the padding value is the integer constant 0
    converted to a float). -/
def padded (x : FVec Ideal S16x256x4096 .f32) : FVec Ideal S16x256x4102 .f32 :=
  pad S16x256x4102 ![0, 0, 3] ![0, 0, 3] ![0, 0, 0] x (sitofp (F := Ideal) .f32 (constantI S_ 32 0#32))
    pads_S16x256x4096_S16x256x4102_000_000_330 h_S_

/-- Entry `p` of a padded row: the input at `p - 3` when `3 ≤ p < 4099`, zero otherwise. -/
theorem padded_apply (x : FVec Ideal S16x256x4096 .f32) (a : Fin 16) (b : Fin 256) (p : Fin 4102) :
    padded x (ix3 a b p)
      = if h : 3 ≤ p.val ∧ p.val < 4099 then x (ix3 a b ⟨p.val - 3, by omega⟩) else 0 := by
  unfold padded
  by_cases h : 3 ≤ p.val ∧ p.val < 4099
  · rw [dif_pos h]
    exact pad_apply_of_inside _ _ _ x _ pads_S16x256x4096_S16x256x4102_000_000_330 h_S_ (ix3 a b p)
      (ix3 a b ⟨p.val - 3, by omega⟩) (fun ax => match ax with
        | ⟨0, _⟩ => by show a.val = 0 + a.val * (0 + 1); omega
        | ⟨1, _⟩ => by show b.val = 0 + b.val * (0 + 1); omega
        | ⟨2, _⟩ => by show p.val = 3 + (p.val - 3) * (0 + 1); omega)
  · rw [dif_neg h]
    refine (pad_apply_of_not_inside _ _ _ x _ pads_S16x256x4096_S16x256x4102_000_000_330 h_S_ (ix3 a b p)
      (⟨2, by decide⟩ : Fin S16x256x4096.rank) ?_).trans ?_
    · show ¬(3 ≤ p.val ∧ (p.val - 3) % (0 + 1) = 0 ∧ (p.val - 3) / (0 + 1) < 4096)
      omega
    · show (((0#32 : BitVec 32).toInt : ℝ) : EReal) = 0
      rw [BitVec.toInt_zero, Int.cast_zero, EReal.coe_zero]

/-- The array of input windows as the host operations build it: the padded input gathered at the start indices into
    `[16, 256, 16, 262]` (batch, input channel, window, entry), reshaped to `[65536, 262]`. -/
def hostWin (x : FVec Ideal S16x256x4096 .f32) : FVec Ideal S65536x262 .f32 :=
  shapeCast S65536x262
    (Host.gather gather_S16x256x4102_S16x262x1_S16x256x16x262_01_2_n_n_2_2_162561 (padded x) startIdx)
    shapeCasts_S16x256x16x262_S65536x262

/-- Row `r` of the window array is window `r % 16` of the padded row of batch `r / 4096` and input channel
    `r / 16 % 256`; its entry `jj` sits at position `r % 16 * 256 + jj` of that row. -/
theorem hostWin_apply (x : FVec Ideal S16x256x4096 .f32) (r : Fin 65536) (jj : Fin 262) :
    hostWin x (ix2 r jj)
      = padded x (ix3 (⟨r.val / 4096, by omega⟩ : Fin 16) (⟨r.val / 16 % 256, by omega⟩ : Fin 256)
          (⟨r.val % 16 * 256 + jj.val, by omega⟩ : Fin 4102)) := by
  unfold hostWin
  refine (shapeCast_apply _ shapeCasts_S16x256x16x262_S65536x262 (ix2 r jj)
    (ix4 (⟨r.val / 4096, by omega⟩ : Fin 16) (⟨r.val / 16 % 256, by omega⟩ : Fin 256) (⟨r.val % 16, by omega⟩ : Fin 16) jj)
    (by rw [Shape.rowMajor_val_four, Shape.rowMajor_val_two]
        show ((r.val / 4096 * 256 + r.val / 16 % 256) * 16 + r.val % 16) * 262 + jj.val = r.val * 262 + jj.val
        omega)).trans ?_
  show Host.gather (Cert.GatherRead.winDims 16 256 4102 16 262
      Facts₀.gather_S16x256x4102_S16x262x1_S16x256x16x262_01_2_n_n_2_2_162561_wf) (padded x) startIdx (ix4 _ _ _ _) = _
  rw [Cert.GatherRead.gather_window_apply (by decide : 0 < 4102)]
  refine congrArg (fun p : Fin 4102 => padded x (ix3 (⟨r.val / 4096, by omega⟩ : Fin 16) (⟨r.val / 16 % 256, by omega⟩ : Fin 256) p))
    (Fin.ext ?_)
  show min (startIdx (ix3 (⟨r.val % 16, by omega⟩ : Fin 16) jj ⟨0, Nat.one_pos⟩)).toInt.toNat (4102 - 1) = r.val % 16 * 256 + jj.val
  rw [startIdx_apply, startWord_toInt _ _ (by show r.val % 16 < 16; omega) jj.isLt, Int.toNat_natCast]
  show min (r.val % 16 * 256 + jj.val) (4102 - 1) = _
  omega

/-! ## The window array is the specification's windows -/

/-- The specification's window entry is the padded row's entry: the two spell the batch as `r / 16 / 256` and
    `r / 4096`. -/
theorem win_eq_padded (x : FVec Ideal S16x256x4096 .f32) (r : Fin 65536) (jj : Fin 262) :
    Cert.ConvSpec.win x r jj
      = padded x (ix3 (⟨r.val / 4096, by omega⟩ : Fin 16) (⟨r.val / 16 % 256, by omega⟩ : Fin 256)
          (⟨r.val % 16 * 256 + jj.val, by omega⟩ : Fin 4102)) := by
  rw [padded_apply]
  unfold Cert.ConvSpec.win Cert.ConvSpec.xpad
  refine dite_congr rfl (fun h => ?_) (fun _ => rfl)
  refine congrArg x (funext fun a => ?_)
  match a with
  | ⟨0, _⟩ => exact Fin.ext (by show r.val / 16 / 256 = r.val / 4096; omega)
  | ⟨1, _⟩ => rfl
  | ⟨2, _⟩ => rfl

/-- Entry `i` of the window array is the specification's window entry. -/
theorem hostWin_eq_win (x : FVec Ideal S16x256x4096 .f32) (i : S65536x262.Idx) :
    hostWin x i = Cert.ConvSpec.win x ⟨(i 0).val, idx2_lt0 i⟩ ⟨(i 1).val, idx2_lt1 i⟩ := by
  have hi : i = ix2 (⟨(i 0).val, idx2_lt0 i⟩ : Fin 65536) (⟨(i 1).val, idx2_lt1 i⟩ : Fin 262) := by
    funext a
    match a with
    | ⟨0, _⟩ => rfl
    | ⟨1, _⟩ => rfl
  refine (congrArg (hostWin x) hi).trans ?_
  rw [hostWin_apply, win_eq_padded]

/-- Every entry of the window array of an input of real numbers is a real number: an input entry, or the padding 0. -/
theorem hostWin_real (x : FVec Ideal S16x256x4096 .f32) (hx : AllReal x) (i : S65536x262.Idx) :
    ∃ t : ℝ, hostWin x i = (t : EReal) := by
  obtain ⟨r, jj, rfl⟩ : ∃ (r : Fin 65536) (jj : Fin 262), i = ix2 r jj := ⟨i 0, i 1, eq_ix2 i⟩
  rw [hostWin_apply, padded_apply]
  by_cases h : 3 ≤ r.val % 16 * 256 + jj.val ∧ r.val % 16 * 256 + jj.val < 4099
  · rw [dif_pos h]; exact hx _
  · rw [dif_neg h]; exact ⟨0, EReal.coe_zero.symm⟩

/-- A real number minus itself is zero (on the extended reals this fails at the two infinities). -/
theorem sub_self_of_real {y : EReal} (h : ∃ t : ℝ, y = (t : EReal)) : y - y = 0 := by
  obtain ⟨t, rfl⟩ := h
  rw [← EReal.coe_sub, sub_self, EReal.coe_zero]

/-- The weights with their three axes reversed: `[256, 256, 7]` (output channel, offset, tap) to `[7, 256, 256]`. -/
def wT (w : FVec Ideal S256x256x7 .f32) : FVec Ideal S7x256x256 .f32 :=
  transpose S7x256x256 [2, 1, 0] w transposes_S256x256x7_S7x256x256_2_1_0

/-- Entry `i` of the transposed weights is the weight with the coordinates reversed. -/
theorem wT_apply (w : FVec Ideal S256x256x7 .f32) (i : S7x256x256.Idx) :
    wT w i = w (ix3 ⟨(i 2).val, (i 2).isLt⟩ ⟨(i 1).val, (i 1).isLt⟩ ⟨(i 0).val, (i 0).isLt⟩) :=
  transpose_apply [2, 1, 0] w transposes_S256x256x7_S7x256x256_2_1_0 i
    (ix3 ⟨(i 2).val, (i 2).isLt⟩ ⟨(i 1).val, (i 1).isLt⟩ ⟨(i 0).val, (i 0).isLt⟩) (fun b => match b with
      | ⟨0, _⟩ => rfl
      | ⟨1, _⟩ => rfl
      | ⟨2, _⟩ => rfl)

/-! ## What the host operations leave in the four arrays -/

variable (m : (ℓ : Loc nD τ sig) → Buf (Elt Ideal) ℓ) (c : Dev nD)

/-- The high part of the windows, as the operations compose: the window array with its format narrowed. -/
theorem V_main_v18_eq : (V (F := Ideal) m c main_v18 : S65536x262.Idx → EReal)
    = truncf .bf16 (hostWin (m ((c : Thread nD τ).loc main_arg0))) bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  rfl

/-- The low part of the windows, as the operations compose: the window array minus its high part widened back,
    narrowed. -/
theorem V_main_v21_eq : (V (F := Ideal) m c main_v21 : S65536x262.Idx → EReal)
    = truncf .bf16
        (subf (hostWin (m ((c : Thread nD τ).loc main_arg0)))
          (extf .f32 (truncf .bf16 (hostWin (m ((c : Thread nD τ).loc main_arg0))) bitsLt_bf16_f32) bitsLt_bf16_f32))
        bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  rfl

/-- The high part of the weights, as the operations compose: the weights transposed, narrowed. -/
theorem V_main_v23_eq : (V (F := Ideal) m c main_v23 : S7x256x256.Idx → EReal)
    = truncf .bf16 (wT (m ((c : Thread nD τ).loc main_arg1))) bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  rfl

/-- The low part of the weights, as the operations compose. -/
theorem V_main_v26_eq : (V (F := Ideal) m c main_v26 : S7x256x256.Idx → EReal)
    = truncf .bf16
        (subf (wT (m ((c : Thread nD τ).loc main_arg1)))
          (extf .f32 (truncf .bf16 (wT (m ((c : Thread nD τ).loc main_arg1))) bitsLt_bf16_f32) bitsLt_bf16_f32))
        bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  rfl

theorem V_hi : (V (F := Ideal) m c main_v18 : S65536x262.Idx → EReal)
    = fun i => Cert.ConvSpec.win (m ((c : Thread nD τ).loc main_arg0)) ⟨(i 0).val, idx2_lt0 i⟩ ⟨(i 1).val, idx2_lt1 i⟩ := by
  rw [V_main_v18_eq]
  funext i
  rw [truncf_apply]
  exact hostWin_eq_win _ i

theorem V_lo (hx : AllReal (m ((c : Thread nD τ).loc main_arg0) : S16x256x4096.Idx → EReal)) :
    (V (F := Ideal) m c main_v21 : S65536x262.Idx → EReal) = (fun _ => (0 : EReal)) := by
  rw [V_main_v21_eq]
  funext i
  rw [truncf_apply, subf_apply, extf_apply, truncf_apply]
  exact sub_self_of_real (hostWin_real _ hx i)

theorem V_whi : (V (F := Ideal) m c main_v23 : S7x256x256.Idx → EReal)
    = fun i => (m ((c : Thread nD τ).loc main_arg1) : S256x256x7.Idx → EReal)
        (ix3 ⟨(i 2).val, (i 2).isLt⟩ ⟨(i 1).val, (i 1).isLt⟩ ⟨(i 0).val, (i 0).isLt⟩) := by
  rw [V_main_v23_eq]
  funext i
  rw [truncf_apply]
  exact wT_apply _ i

theorem V_wlo (hw : AllReal (m ((c : Thread nD τ).loc main_arg1) : S256x256x7.Idx → EReal)) :
    (V (F := Ideal) m c main_v26 : S7x256x256.Idx → EReal) = (fun _ => (0 : EReal)) := by
  rw [V_main_v26_eq]
  funext i
  rw [truncf_apply, subf_apply, extf_apply, truncf_apply, wT_apply]
  exact sub_self_of_real (hw _)

end Cert.HostLeg
end
-- ==== Proof.KernelValue.lean ====
/-
  The kernel's result array, read off its run.

  The kernel runs at 16 grid points. At point t it reads rows t * 4096 .. t * 4096 + 4095 of the two window arrays
  (the high and the low part of the input windows), all of the weights (high and low part) and the bias, and writes
  rows t * 4096 .. t * 4096 + 4095 of the 65536 x 256 result. The low parts are zero when every input and every weight
  is a real number, and zero times anything is zero on the extended reals, so of the three products the body adds per
  tap only high times high remains: the specification's term. The 16 row blocks tile the result, so after the run the
  whole array is the specification.
-/
import proofs.«140767_j82085414961669_2_alg».proof.Proof.Spec
import proofs.«140767_j82085414961669_2_alg».proof.Proof.Gen.KernelIdeal.Frame
import proofs.«140767_j82085414961669_2_alg».proof.Proof.Payload
import proofs.«140767_j82085414961669_2_alg».proof.Proof.HostLeg
import Idealize.ShloMosaic.Lib.Pipeline.Value
import Idealize.ShloMosaic.Lib.ValueIdx

noncomputable section
open Idealize.ShloMosaic Idealize.ShloMosaic.ValueIdx Idealize.ShloMosaic.TcCoe Idealize.SL.Sem

namespace Cert.KerValue
open Cert.KernelIdeal Cert.KernelIdeal.Gen Cert.ConvSpec Cert.HostLeg
variable (m : (ℓ : Loc nD τ sig) → Buf (Elt Ideal) ℓ) (c : Dev nD)

/-- The index maps over the 16 grid points: the two window arrays and the result move with the point along the rows
    (block index = the point, column block 0); the weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

/-- A window entry depends on the row and the entry numbers only. -/
theorem win_congr (x : FVec Ideal SX .f32) {r r' : Fin 65536} {j j' : Fin 262} (hr : r.val = r'.val) (hj : j.val = j'.val) :
    win x r j = win x r' j' := by
  obtain rfl := Fin.ext hr; obtain rfl := Fin.ext hj; rfl

/-- Row p of point t's block is row t * 4096 + p of the array. -/
theorem row_lt (t : Fin cfg0.N) (p : Fin 4096) : t.val * 4096 + p.val < 65536 := by
  have := t.isLt; have h : cfg0.N = 16 := N_0; have := p.isLt; omega

/-- The high window block at point t: row p, entry jj is the window entry (t * 4096 + p, jj). -/
theorem blk0 (t : Fin cfg0.N) (p : Fin 4096) (jj : Fin 262) :
    @Eq EReal (iblk m c 0 t (ix2 p jj)) (win (m ((c : Thread nD τ).loc main_arg0)) ⟨t.val * 4096 + p.val, row_lt t p⟩ jj) := by
  show V (F := Ideal) m c main_v18 (((cfg0.win 0).blk t).view.emb (ix2 p jj)) = _
  rw [V_hi m c]
  beta_reduce
  obtain ⟨e00, e01, -⟩ := idx_facts t
  refine win_congr _ ?_ ?_
  · show win0_0.index t (0 : Fin 2) * 4096 + 1 * p.val = t.val * 4096 + p.val
    omega
  · show win0_0.index t (1 : Fin 2) * 262 + 1 * jj.val = jj.val
    omega

/-- The low window block is zero when every input is a real number. -/
theorem blk1 (hx : AllReal (m ((c : Thread nD τ).loc main_arg0) : S16x256x4096.Idx → EReal)) (t : Fin cfg0.N) (p : Fin 4096) (jj : Fin 262) :
    @Eq EReal (iblk m c 1 t (ix2 p jj)) 0 := by
  show V (F := Ideal) m c main_v21 (((cfg0.win 1).blk t).view.emb (ix2 p jj)) = _
  rw [V_lo m c hx]

/-- The high weight block is the weights with the coordinates reversed: entry (k, j, q) is w[q, j, k]. -/
theorem blk2 (t : Fin cfg0.N) (k : Fin 7) (j q : Fin 256) :
    @Eq EReal (iblk m c 2 t (ix3 k j q)) ((m ((c : Thread nD τ).loc main_arg1) : S256x256x7.Idx → EReal) (ix3 q j k)) := by
  show V (F := Ideal) m c main_v23 (((cfg0.win 2).blk t).view.emb (ix3 k j q)) = _
  rw [V_whi m c]
  beta_reduce
  obtain ⟨-, -, -, -, e20, e21, e22, -⟩ := idx_facts t
  refine congrArg _ (funext fun a => Fin.ext ?_)
  match a with
  | ⟨0, _⟩ => show win0_2.index t (2 : Fin 3) * 256 + 1 * q.val = q.val; omega
  | ⟨1, _⟩ => show win0_2.index t (1 : Fin 3) * 256 + 1 * j.val = j.val; omega
  | ⟨2, _⟩ => show win0_2.index t (0 : Fin 3) * 7 + 1 * k.val = k.val; omega

/-- The low weight block is zero when every weight is a real number. -/
theorem blk3 (hw : AllReal (m ((c : Thread nD τ).loc main_arg1) : S256x256x7.Idx → EReal)) (t : Fin cfg0.N) (k : Fin 7) (j q : Fin 256) :
    @Eq EReal (iblk m c 3 t (ix3 k j q)) 0 := by
  show V (F := Ideal) m c main_v26 (((cfg0.win 3).blk t).view.emb (ix3 k j q)) = _
  rw [V_wlo m c hw]

/-- The bias block is the bias. -/
theorem blk4 (t : Fin cfg0.N) (q : Fin 256) :
    @Eq EReal (iblk m c 4 t (ix1 q)) ((m ((c : Thread nD τ).loc main_arg2) : S256.Idx → EReal) (ix1 q)) := by
  show V (F := Ideal) m c main_arg2 (((cfg0.win 4).blk t).view.emb (ix1 q)) = _
  rw [V_main_arg2 m c]
  obtain ⟨-, -, -, -, -, -, -, -, -, -, e40, -⟩ := idx_facts t
  refine congrArg _ (funext fun a => Fin.ext ?_)
  match a with
  | ⟨0, _⟩ => show win0_4.index t (0 : Fin 1) * 256 + 1 * q.val = q.val; omega

/-- The body's block at point t, row p, column q is the specification at row t * 4096 + p: of the three products of
    each tap the two with a low part vanish, and the remaining one is the specification's term. -/
theorem flushed_at (hx : AllReal (m ((c : Thread nD τ).loc main_arg0) : S16x256x4096.Idx → EReal))
    (hw : AllReal (m ((c : Thread nD τ).loc main_arg1) : S256x256x7.Idx → EReal)) (t : Fin cfg0.N) (p : Fin 4096) (q : Fin 256) :
    @Eq EReal (out0_5 (F := Ideal) (iblk m c 0 t) (iblk m c 1 t) (iblk m c 2 t) (iblk m c 3 t) (iblk m c 4 t) (ix2 p q))
      (G (m ((c : Thread nD τ).loc main_arg0)) (m ((c : Thread nD τ).loc main_arg1)) (m ((c : Thread nD τ).loc main_arg2))
          (ix2 ⟨t.val * 4096 + p.val, row_lt t p⟩ q)) := by
  refine (Cert.KerLeg.out_apply (iblk m c 0 t) (iblk m c 1 t) (iblk m c 2 t) (iblk m c 3 t) (iblk m c 4 t) p q).trans ?_
  simp only [blk0 m c t, blk1 m c hx t, blk2 m c t, blk3 m c hw t, blk4 m c t, mul_zero, zero_mul, Finset.sum_const_zero,
    add_zero]
  rfl

/-- WHAT POINT t WRITES BACK is block t of the specification: rows t * 4096 .. t * 4096 + 4095, all 256 columns. -/
theorem flushed_eq (hx : AllReal (m ((c : Thread nD τ).loc main_arg0) : S16x256x4096.Idx → EReal))
    (hw : AllReal (m ((c : Thread nD τ).loc main_arg1) : S256x256x7.Idx → EReal)) (t : Fin cfg0.N) :
    (dats (F := Ideal) m 0 c).flushed 5 t = ((cfg0.win 5).blk t).view.read (Elt Ideal)
      (G (m ((c : Thread nD τ).loc main_arg0)) (m ((c : Thread nD τ).loc main_arg1)) (m ((c : Thread nD τ).loc main_arg2))) := by
  show (cfg0.win 5).cut (grid0.coords t) ((dats (F := Ideal) m 0 c).after 5 t) = _
  rw [after0_5]
  funext y
  have h0 : (y 0).val < 4096 := (y 0).isLt
  have h1 : (y 1).val < 256 := (y 1).isLt
  show @Eq EReal (out0_5 (F := Ideal) (iblk m c 0 t) (iblk m c 1 t) (iblk m c 2 t) (iblk m c 3 t) (iblk m c 4 t) y)
    (G (m ((c : Thread nD τ).loc main_arg0)) (m ((c : Thread nD τ).loc main_arg1)) (m ((c : Thread nD τ).loc main_arg2))
      (((cfg0.win 5).blk t).view.emb y))
  have hy : (y : S4096x256.Idx) = ix2 (⟨(y 0).val, h0⟩ : Fin 4096) (⟨(y 1).val, h1⟩ : Fin 256) :=
    funext fun a => by match a with | ⟨0, _⟩ => rfl | ⟨1, _⟩ => rfl
  refine (congrArg (out0_5 (F := Ideal) (iblk m c 0 t) (iblk m c 1 t) (iblk m c 2 t) (iblk m c 3 t) (iblk m c 4 t)) hy).trans ?_
  refine (flushed_at m c hx hw t ⟨(y 0).val, h0⟩ ⟨(y 1).val, h1⟩).trans ?_
  obtain ⟨-, -, -, -, -, -, -, -, -, -, -, e50, e51⟩ := idx_facts t
  refine congrArg (G (m ((c : Thread nD τ).loc main_arg0)) (m ((c : Thread nD τ).loc main_arg1)) (m ((c : Thread nD τ).loc main_arg2)))
    (funext fun a => Fin.ext ?_)
  match a with
  | ⟨0, _⟩ => show t.val * 4096 + (y 0).val = win0_5.index t (0 : Fin 2) * 4096 + 1 * (y 0).val; omega
  | ⟨1, _⟩ => show (y 1).val = win0_5.index t (1 : Fin 2) * 256 + 1 * (y 1).val; omega

/-- An index of the result array is in point t's block iff each coordinate is in the block's range on its axis. -/
theorem mem_blk5 (t : Fin cfg0.N) (i : S65536x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v27).slice (win0_5.rect t)).set ↔ _
  rw [View.set_slice_whole, Rect.mem_set_unit]
  exact Iff.rfl

/-- Every row block of the result is SOME point's. -/
theorem idx_onto : ∀ q0 : Fin 16, ∃ t : Fin cfg0.N, win0_5.index t (0 : Fin 2) = q0.val ∧ win0_5.index t (1 : Fin 2) = 0 :=
  (by decide +kernel : ∀ q0 : Fin 16, ∃ t : Fin grid0.N, win0_5.index t (0 : Fin 2) = q0.val ∧ win0_5.index t (1 : Fin 2) = 0)

/-- The 16 blocks of 4096 rows tile the 65536 rows: row r is in the block of point r / 4096. -/
theorem cover (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  obtain ⟨t, q0, q1⟩ := idx_onto ⟨(i 0).val / 4096, by omega⟩
  have q0' : win0_5.index t (0 : Fin 2) = (i 0).val / 4096 := q0
  refine ⟨t, flush0_5 t, ?_⟩
  rw [mem_blk5]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 256 ≤ (i 1).val ∧ (i 1).val < win0_5.index t (1 : Fin 2) * 256 + 256; omega

/-- THE RESULT ARRAY after the run is the specification of the three argument arrays. -/
theorem final (hx : AllReal (m ((c : Thread nD τ).loc main_arg0) : S16x256x4096.Idx → EReal))
    (hw : AllReal (m ((c : Thread nD τ).loc main_arg1) : S256x256x7.Idx → EReal)) :
    (dats (F := Ideal) m 0 c).arrAt 5 cfg0.N
      = G (m ((c : Thread nD τ).loc main_arg0)) (m ((c : Thread nD τ).loc main_arg1)) (m ((c : Thread nD τ).loc main_arg2)) :=
  (dats (F := Ideal) m 0 c).arrAt_eq_of_cover 5 _ (fun t _ => flushed_eq m c hx hw t) (cover)

end Cert.KerValue
end
-- ==== Proof.Tail.lean ====
import proofs.«140767_j82085414961669_2_alg».proof.Proof.Gen.KernelIdeal.Frame
import Idealize.ShloMosaic.Lib.Pipeline.Value
import Idealize.ShloMosaic.Lib.StableHlo.Run
import Idealize.ShloMosaic.PureOps.Ideal

noncomputable section
open Idealize.ShloMosaic Idealize.ShloMosaic.TcCoe Idealize.SL.Sem

namespace Cert.KerTail
open Cert.KernelIdeal Cert.KernelIdeal.Gen
variable (m : (ℓ : Loc nD τ sig) → Buf (Elt Ideal) ℓ) (c : Dev nD)

/-- The result buffer after the run: the one host operation after the region, a reshape, applied to the output
    window's array as the region leaves it. -/
theorem tail_eq :
    (Pipeline.afterTail₀ cfgs (dats (F := Ideal) m) 0 (V0 m) [hostOps1] c main_v28 : S16x256x4096.Idx → EReal)
      = shapeCast S16x256x4096 ((dats (F := Ideal) m 0 c).arrAt 5 cfg0.N : S65536x256.Idx → EReal)
          shapeCasts_S65536x256_S16x256x4096 := by
  -- the tail is one reshape: its result buffer holds the reshape of what its operand buffer holds,
  unfold Pipeline.afterTail₀
  show StableHlo.after hostOps1 _ (Proc.devRef .tc main_v28) = _
  after_results
  -- and the operand buffer is the array of output window 5, which the region leaves at its final contents
  have h : Pipeline.withArrays (cfgs 0).spec c (V0 m c) (fun w => (dats (F := Ideal) m 0 c).arrAt w (cfgs 0).N)
      (Proc.devRef .tc main_v27) = (dats (F := Ideal) m 0 c).arrAt 5 (cfgs 0).N :=
    Pipeline.withArrays_arr spec0 winFacts0.arr_inj c _ _ 5
  rw [h]
  rfl

end Cert.KerTail
end
-- ==== Proof.lean ====
/-
  A one-dimensional convolution computed two ways, equal at the exact-real reading.

  The reference pads each of the 16 x 256 input rows by three zeros at each end, cuts every padded row into its 4096
  patches of 7 consecutive entries, reshapes the patches row-major into 65536 rows of 1792 = 256 x 7 numbers (so that a
  row of the matrix holds 256 consecutive positions of ONE input row, each with its 7 taps), multiplies by the weights
  reshaped to 1792 x 256, adds the bias, and reshapes the 65536 x 256 result to 16 x 256 x 4096.

  The kernel notices that row r of that matrix only needs the 262 consecutive padded entries starting at position
  (r % 16) * 256 of input row r / 16. It gathers those windows, splits windows and weights into a high part (the
  number in a shorter float format) and a low part (the number minus its high part), and for each of the 7 taps adds
  high x high + high x low + low x high of the window shifted by the tap against that tap's 256 x 256 weights; then it
  adds the bias and reshapes as the reference does.

  Read over the extended reals a change of float format is the identity, so a high part is the number itself and a low
  part is the number minus itself: zero, PROVIDED the number is a real (at an infinity the difference is not zero),
  which is what the precondition gives. Zero times anything is zero there, so only high x high remains, and both
  programs compute

      out[r, co] = sum over taps k and offsets j of  window(r)[k + j] * w[co, j, k]  +  bias[co]

  (Proof/Spec.lean). The reference's single sum over q < 1792 is this double sum with q = 7 j + k (Proof/RefLeg.lean);
  the kernel's host side builds the windows and the transposed weights (Proof/HostLeg.lean), its body adds the taps
  (Proof/Payload.lean), its 16 row blocks tile the result (Proof/KernelValue.lean), and the one reshape after the
  launch is the reference's last reshape (Proof/Tail.lean). Finiteness is read out of the precondition in
  Proof/Finite.lean; the gather both programs use is read at an index in Proof/LibGatherRead.lean.
-/
import proofs.«140767_j82085414961669_2_alg».proof.Defs
import proofs.«140767_j82085414961669_2_alg».proof.Proof.Gen.Kernel
import proofs.«140767_j82085414961669_2_alg».proof.Proof.Gen.Kernel.Skeleton
import proofs.«140767_j82085414961669_2_alg».proof.Proof.Gen.Kernel.Launch
import proofs.«140767_j82085414961669_2_alg».proof.Proof.Gen.Kernel.Points
import proofs.«140767_j82085414961669_2_alg».proof.Proof.Gen.Kernel.Frame
import proofs.«140767_j82085414961669_2_alg».proof.Proof.Gen.KernelIdeal
import proofs.«140767_j82085414961669_2_alg».proof.Proof.Gen.KernelIdeal.Skeleton
import proofs.«140767_j82085414961669_2_alg».proof.Proof.Gen.KernelIdeal.Launch
import proofs.«140767_j82085414961669_2_alg».proof.Proof.Gen.KernelIdeal.Points
import proofs.«140767_j82085414961669_2_alg».proof.Proof.Gen.KernelIdeal.Frame
import proofs.«140767_j82085414961669_2_alg».proof.Proof.Gen.ReferenceIdeal
import proofs.«140767_j82085414961669_2_alg».proof.Proof.Gen.Pre_finite_inputs
import proofs.«140767_j82085414961669_2_alg».proof.Proof.Gen.ReferenceIdeal.Run
import proofs.«140767_j82085414961669_2_alg».proof.Proof.Gen.ReferenceIdeal.Read
import proofs.«140767_j82085414961669_2_alg».proof.Proof.Spec
import proofs.«140767_j82085414961669_2_alg».proof.Proof.Finite
import proofs.«140767_j82085414961669_2_alg».proof.Proof.RefLeg
import proofs.«140767_j82085414961669_2_alg».proof.Proof.KernelValue
import proofs.«140767_j82085414961669_2_alg».proof.Proof.Tail
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The two runs end at the same array -/

/-- The last step both programs share: the 65536 x 256 array laid out, row-major, as 16 x 256 x 4096. -/
def out3 (y : FVec Ideal Cert.ConvSpec.SO .f32) : FVec Ideal Cert.KernelIdeal.S16x256x4096 .f32 :=
  shapeCast Cert.KernelIdeal.S16x256x4096 y Cert.KernelIdeal.Facts₀.shapeCasts_S65536x256_S16x256x4096

section KernelRun
open Cert.KernelIdeal Cert.KernelIdeal.Gen

/-- The idealized kernel program runs, ends with its result at the specification of its arguments laid out as
    16 x 256 x 4096, and leaves its arguments unchanged: the generated frame run, its result buffer read through the
    one reshape after the launch, the launch's output array being the specification because the precondition makes
    every input and every weight a real number. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v28)
        = out3 (Cert.ConvSpec.G (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v28 (Pipeline.mem_restRefs_of main_v28 (by decide) (by decide))).trans
          ((Cert.KerTail.tail_eq m c).trans
            (congrArg out3 (Cert.KerValue.final m c (Cert.Finite.reals_of_pre m hpre c).1 (Cert.Finite.reals_of_pre m hpre c).2))),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 4).trans (((dats m 0 c).arrAt_in 4 rfl _).trans ((A_eq m c 4).trans (V_main_arg2 m c)))⟩)
    (run_main m ρ)

end KernelRun

/-- At the ideal instance both programs, from memories agreeing on the arguments, end with the specification of the
    arguments laid out as 16 x 256 x 4096: the kernel by `kernel_run`, the reference by its generated run, whose
    65536 x 256 array before the final reshape is the specification. -/
theorem algebraic : Cert.algebraic_KernelIdeal_ReferenceIdeal := by
  intro m ρ m' ρ' hpre hagree
  refine ⟨fun c => out3 (Cert.ConvSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    kernel_run m ρ hpre, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  unfold Cert.ReferenceIdeal.Read.val_main_v24
  rw [Cert.RefLeg.ref_is_G]
  rfl

/-- The claim: the three frames, the idealization (the ideal pass rewrote nothing, so there is nothing to preserve), and
    the equality of the two idealized programs' results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
